-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S4x1024x1024 : Shape := ⟨3, ![4, 1024, 1024]⟩
abbrev S4x1x1024 : Shape := ⟨3, ![4, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1x1024 : Shape := ⟨2, ![1, 1024]⟩
abbrev S4x1024 : Shape := ⟨2, ![4, 1024]⟩
abbrev S_ : Shape := ⟨0, ![]⟩
abbrev S1024x1 : Shape := ⟨2, ![1024, 1]⟩
abbrev S4x1024x1 : Shape := ⟨3, ![4, 1024, 1]⟩
abbrev S4x1024x2048 : Shape := ⟨3, ![4, 1024, 2048]⟩
abbrev S1x1024x2048 : Shape := ⟨3, ![1, 1024, 2048]⟩
abbrev S1024x2048 : Shape := ⟨2, ![1024, 2048]⟩

abbrev nBuf : Space → Nat
  | .hbm => 55
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S4x4096x1024, .bf16⟩
  | .hbm, ⟨16, _⟩ => ⟨S4x1024x1024, .f32⟩
  | .hbm, ⟨17, _⟩ => ⟨S4x1x1024, .f32⟩
  | .hbm, ⟨18, _⟩ => ⟨S4x1024, .f32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1x1024, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1024x1024, .f32⟩
  | .hbm, ⟨44, _⟩ => ⟨S1x1024x1024, .f32⟩
  | .hbm, ⟨45, _⟩ => ⟨S4x1024x1024, .f32⟩
  | .hbm, ⟨46, _⟩ => ⟨S4x1024x1024, .f32⟩
  | .hbm, ⟨47, _⟩ => ⟨S1x1024x1024, .f32⟩
  | .hbm, ⟨48, _⟩ => ⟨S4x1024x1, .f32⟩
  | .hbm, ⟨49, _⟩ => ⟨S4x1024x1024, .f32⟩
  | .hbm, ⟨50, _⟩ => ⟨S4x1024x1024, .f32⟩
  | .hbm, ⟨51, _⟩ => ⟨S4x1024x1024, .f32⟩
  | .hbm, ⟨52, _⟩ => ⟨S4x1024x2048, .f32⟩
  | .hbm, ⟨53, _⟩ => ⟨S4x1024x2048, .bf16⟩
  | .hbm, ⟨54, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x2048, .bf16⟩
  | .local _ .vmem, ⟨14, _⟩ => ⟨S1x1024x2048, .bf16⟩
  | .local _ .vmem, ⟨15, _⟩ => ⟨S1024x1024, .bf16⟩
  | .local _ .vmem, ⟨16, _⟩ => ⟨S1024, .f32⟩
  | .local _ .vmem, ⟨17, _⟩ => ⟨S1x1024x1024, .f32⟩
  | .local _ .vmem, ⟨18, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  reduces_S512x1024_S1024 : S512x1024.Reduces [0] S1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S4x1x1024_S4x1024 : S4x1x1024.ShapeCasts S4x1024
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  concatenates_S4x1024x1024_S4x1024x1024_S4x1024x2048_d2 : Shape.Concatenates [S4x1024x1024, S4x1024x1024] S4x1024x2048 2
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S1024x2048_o0_0_S1024x1024 : S1024x2048.Slices ![0, 0] S1024x1024
  slices_S1024x2048_o0_1024_S1024x1024 : S1024x2048.Slices ![0, 1024] S1024x1024
  inb_S1024_S1024_0 : ∀ a, (![0] : Fin 1 → Nat) a + S1024.size a ≤ S1024.size a
  h_S1024 : 0 < S1024.numel
  broadcasts_S1x1024_S1024x1024 : S1x1024.Broadcasts S1024x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S1024x2048_S1024x2048_1_0_0_1_n_n_wf : DotDims.WF S1024x1024 S1024x2048 S1024x2048 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .bf16 = 32 ∨ (Rect.block (s := S4x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .f32 = 32 ∨ (Rect.block (s := S4x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S4x1x1024.size a
  hwx0_6 : ∀ i : grid0.Coords, EltTy.bits .f32 = 32 ∨ (Rect.block (s := S4x1x1024) S1x1x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S4x1024x2048.size a
  hwx1_1 : ∀ i : grid1.Coords, EltTy.bits .bf16 = 32 ∨ (Rect.block (s := S4x1024x2048) S1x1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S4x4096x3072 : Shape := ⟨3, ![4, 4096, 3072]⟩
abbrev S4x4096x3x1024 : Shape := ⟨4, ![4, 4096, 3, 1024]⟩
abbrev S4x3x1024x4096 : Shape := ⟨4, ![4, 3, 1024, 4096]⟩
abbrev S4x1x1024x4096 : Shape := ⟨4, ![4, 1, 1024, 4096]⟩
abbrev S4x1024x4096 : Shape := ⟨3, ![4, 1024, 4096]⟩
abbrev S4x32x32x4096 : Shape := ⟨4, ![4, 32, 32, 4096]⟩
abbrev S_ : Shape := ⟨0, ![]⟩
abbrev S4x32x4096x32 : Shape := ⟨4, ![4, 32, 4096, 32]⟩
abbrev S4x32x1x4096 : Shape := ⟨4, ![4, 32, 1, 4096]⟩
abbrev S4x32x33x4096 : Shape := ⟨4, ![4, 32, 33, 4096]⟩
abbrev S4x32x33x32 : Shape := ⟨4, ![4, 32, 33, 32]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x4096x3072, .f32⟩
  | .hbm, ⟨5, _⟩ => ⟨S4x4096x3x1024, .f32⟩
  | .hbm, ⟨6, _⟩ => ⟨S4x3x1024x4096, .f32⟩
  | .hbm, ⟨7, _⟩ => ⟨S4x1x1024x4096, .f32⟩
  | .hbm, ⟨8, _⟩ => ⟨S4x1024x4096, .f32⟩
  | .hbm, ⟨9, _⟩ => ⟨S4x1x1024x4096, .f32⟩
  | .hbm, ⟨10, _⟩ => ⟨S4x1024x4096, .f32⟩
  | .hbm, ⟨11, _⟩ => ⟨S4x1x1024x4096, .f32⟩
  | .hbm, ⟨12, _⟩ => ⟨S4x1024x4096, .f32⟩
  | .hbm, ⟨13, _⟩ => ⟨S4x32x32x4096, .f32⟩
  | .hbm, ⟨14, _⟩ => ⟨S_, .f32⟩
  | .hbm, ⟨15, _⟩ => ⟨S4x32x32x4096, .f32⟩
  | .hbm, ⟨16, _⟩ => ⟨S4x32x32x4096, .f32⟩
  | .hbm, ⟨17, _⟩ => ⟨S4x32x32x4096, .f32⟩
  | .hbm, ⟨18, _⟩ => ⟨S_, .f32⟩
  | .hbm, ⟨19, _⟩ => ⟨S4x32x32x4096, .f32⟩
  | .hbm, ⟨20, _⟩ => ⟨S4x32x32x4096, .f32⟩
  | .hbm, ⟨21, _⟩ => ⟨S4x32x4096x32, .f32⟩
  | .hbm, ⟨22, _⟩ => ⟨S4x32x32x4096, .f32⟩
  | .hbm, ⟨23, _⟩ => ⟨S_, .f32⟩
  | .hbm, ⟨24, _⟩ => ⟨S4x32x1x4096, .f32⟩
  | .hbm, ⟨25, _⟩ => ⟨S4x32x33x4096, .f32⟩
  | .hbm, ⟨26, _⟩ => ⟨S4x32x33x32, .f32⟩
  | .hbm, ⟨27, _⟩ => ⟨S4x32x33x4096, .f32⟩
  | .hbm, ⟨28, _⟩ => ⟨S4x32x32x4096, .f32⟩
  | .hbm, ⟨29, _⟩ => ⟨S4x32x1x4096, .f32⟩
  | .hbm, ⟨30, _⟩ => ⟨S_, .f32⟩
  | .hbm, ⟨31, _⟩ => ⟨S4x32x1x4096, .f32⟩
  | .hbm, ⟨32, _⟩ => ⟨S4x32x1x4096, .f32⟩
  | .hbm, ⟨33, _⟩ => ⟨S4x32x32x4096, .f32⟩
  | .hbm, ⟨34, _⟩ => ⟨S4x32x32x4096, .f32⟩
  | .hbm, ⟨35, _⟩ => ⟨S4x1024x4096, .f32⟩
  | .hbm, ⟨36, _⟩ => ⟨S4x4096x1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_call1_cst : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  shapeCasts_S4x4096x3072_S4x4096x3x1024 : S4x4096x3072.ShapeCasts S4x4096x3x1024
  transposes_S4x4096x3x1024_S4x3x1024x4096_0_2_3_1 : S4x4096x3x1024.Transposes [0, 2, 3, 1] S4x3x1024x4096
  slices_S4x3x1024x4096_S4x1x1024x4096_0_0_0_0 : S4x3x1024x4096.Slices ![0, 0, 0, 0] S4x1x1024x4096
  shapeCasts_S4x1x1024x4096_S4x1024x4096 : S4x1x1024x4096.ShapeCasts S4x1024x4096
  slices_S4x3x1024x4096_S4x1x1024x4096_0_1_0_0 : S4x3x1024x4096.Slices ![0, 1, 0, 0] S4x1x1024x4096
  slices_S4x3x1024x4096_S4x1x1024x4096_0_2_0_0 : S4x3x1024x4096.Slices ![0, 2, 0, 0] S4x1x1024x4096
  shapeCasts_S4x1024x4096_S4x32x32x4096 : S4x1024x4096.ShapeCasts S4x32x32x4096
  bcast_S_S4x32x32x4096 : S_.BroadcastsInDim S4x32x32x4096 (![] : Fin 0 → Fin S4x32x32x4096.rank)
  transposes_S4x32x32x4096_S4x32x4096x32_0_1_3_2 : S4x32x32x4096.Transposes [0, 1, 3, 2] S4x32x4096x32
  bcast_S_S4x32x1x4096 : S_.BroadcastsInDim S4x32x1x4096 (![] : Fin 0 → Fin S4x32x1x4096.rank)
  concatenates_S4x32x32x4096_S4x32x1x4096_S4x32x33x4096_d2 : Shape.Concatenates [S4x32x32x4096, S4x32x1x4096] S4x32x33x4096 2
  slices_S4x32x33x4096_S4x32x32x4096_0_0_0_0 : S4x32x33x4096.Slices ![0, 0, 0, 0] S4x32x32x4096
  slices_S4x32x33x4096_S4x32x1x4096_0_0_32_0 : S4x32x33x4096.Slices ![0, 0, 32, 0] S4x32x1x4096
  bcast_S4x32x1x4096_S4x32x32x4096_0_1_2_3 : S4x32x1x4096.BroadcastsInDim S4x32x32x4096 (![0, 1, 2, 3] : Fin 4 → Fin S4x32x32x4096.rank)
  shapeCasts_S4x32x32x4096_S4x1024x4096 : S4x32x32x4096.ShapeCasts S4x1024x4096
  transposes_S4x1024x4096_S4x4096x1024_0_2_1 : S4x1024x4096.Transposes [0, 2, 1] S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x32x33x4096_S4x32x4096x32_S4x32x33x32_3_2_2_3_01_01_wf : DotDims.WF S4x32x33x4096 S4x32x4096x32 S4x32x33x32 [3] [2] [2] [3] [0, 1] [0, 1]
  dot_S4x32x33x32_S4x32x32x4096_S4x32x33x4096_3_2_2_3_01_01_wf : DotDims.WF S4x32x33x32 S4x32x32x4096 S4x32x33x4096 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x32x33x4096_S4x32x4096x32_S4x32x33x32_3_2_2_3_01_01 : DotDims S4x32x33x4096 S4x32x4096x32 S4x32x33x32 where
  lhsContracting := [3]
  rhsContracting := [2]
  lhsNonContracting := [2]
  rhsNonContracting := [3]
  lhsBatch := [0, 1]
  rhsBatch := [0, 1]
  wf := dot_S4x32x33x4096_S4x32x4096x32_S4x32x33x32_3_2_2_3_01_01_wf
def dot_S4x32x33x32_S4x32x32x4096_S4x32x33x4096_3_2_2_3_01_01 : DotDims S4x32x33x32 S4x32x32x4096 S4x32x33x4096 where
  lhsContracting := [3]
  rhsContracting := [2]
  lhsNonContracting := [2]
  rhsNonContracting := [3]
  lhsBatch := [0, 1]
  rhsBatch := [0, 1]
  wf := dot_S4x32x33x32_S4x32x32x4096_S4x32x33x4096_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.AttnSpec.lean ====
/-
  ReLU-kernelised linear attention over 4 batches, 4096 tokens and 1024 channels in 32 heads of 32 channels,
  followed by a dense layer, written twice as a function of the queries `Q`, keys `K` and values `V`
  (each indexed by batch, token, channel).

  * `denseK`: the dense arrangement. The key/value products and the key sums are taken over ALL pairs of
    channels, `numK b f o = ∑ n, K b n f * V b n o` and `denK b f = ∑ n, K b n f`; a 0/1 mask keeps the pairs of
    one head, and a query row meets the masked matrices by sums over all 1024 channels.
  * `denseR`: the per-head arrangement. Each head's values get one more row of ones, the padded values meet the
    keys (`vk`), the result meets the queries (`o18`), and the row of ones carries the normaliser.

  Both divide numerator by normaliser plus `eps` with the same binary operation `dv`, of which nothing is assumed.
  `qOf`, `kOf`, `vOf` are the three projections of the input by the three row blocks of one weight matrix, the
  first two followed by `max · 0`.
-/
import Idealize.ShloMosaic.PureOps.Ideal
import Idealize.ShloMosaic.Lib.ValueIdx

noncomputable section

namespace Cert.LinAttn

open Idealize.ShloMosaic

/-! ## Arrays of rank 1, 2, 3 as functions of their coordinates -/

def arr1 {α : Type} {a : Nat} (x : (⟨1, ![a]⟩ : Shape).Idx → α) : Fin a → α := fun i => x (ValueIdx.ix1 i)
def arr2 {α : Type} {a b : Nat} (x : (⟨2, ![a, b]⟩ : Shape).Idx → α) : Fin a → Fin b → α := fun i j => x (ValueIdx.ix2 i j)
def arr3 {α : Type} {a b c : Nat} (x : (⟨3, ![a, b, c]⟩ : Shape).Idx → α) : Fin a → Fin b → Fin c → α :=
  fun i j k => x (ValueIdx.ix3 i j k)

/-- Channel `e` of head `hh`. -/
def ch (hh e : Fin 32) : Fin 1024 := ⟨hh.val * 32 + e.val, by have := hh.isLt; have := e.isLt; omega⟩
/-- The head of a channel, and the channel's position in its head. -/
def headOf (c : Fin 1024) : Fin 32 := ⟨c.val / 32, by have := c.isLt; omega⟩
def posOf (c : Fin 1024) : Fin 32 := ⟨c.val % 32, by omega⟩

section Projections
variable (x : Fin 4 → Fin 4096 → Fin 1024 → EReal) (w : Fin 3072 → Fin 1024 → EReal)

def qOf (b : Fin 4) (n : Fin 4096) (f : Fin 1024) : EReal :=
  max (∑ c : Fin 1024, x b n c * w ⟨f.val, by have := f.isLt; omega⟩ c) 0
def kOf (b : Fin 4) (n : Fin 4096) (f : Fin 1024) : EReal :=
  max (∑ c : Fin 1024, x b n c * w ⟨1024 + f.val, by have := f.isLt; omega⟩ c) 0
def vOf (b : Fin 4) (n : Fin 4096) (f : Fin 1024) : EReal :=
  ∑ c : Fin 1024, x b n c * w ⟨2048 + f.val, by have := f.isLt; omega⟩ c
end Projections

variable (Q K V : Fin 4 → Fin 4096 → Fin 1024 → EReal) (wp : Fin 1024 → Fin 1024 → EReal) (bias : Fin 1024 → EReal)
  (eps : EReal) (dv : EReal → EReal → EReal)

/-! ## The dense arrangement -/

/-- One when the two channels lie in the same head, zero otherwise. -/
def mask (f o : Fin 1024) : EReal := if f.val / 32 = o.val / 32 then 1 else 0
def numK (b : Fin 4) (f o : Fin 1024) : EReal := ∑ n : Fin 4096, K b n f * V b n o
def denK (b : Fin 4) (f : Fin 1024) : EReal := ∑ n : Fin 4096, K b n f
def outNum (b : Fin 4) (n : Fin 4096) (o : Fin 1024) : EReal := ∑ f : Fin 1024, Q b n f * (numK K V b f o * mask f o)
def outDen (b : Fin 4) (n : Fin 4096) (o : Fin 1024) : EReal := ∑ f : Fin 1024, Q b n f * (mask f o * denK K b f)
def attnK (b : Fin 4) (n : Fin 4096) (o : Fin 1024) : EReal := dv (outNum Q K V b n o) (outDen Q K b n o + eps)
def denseK (b : Fin 4) (n : Fin 4096) (o' : Fin 1024) : EReal :=
  (∑ o : Fin 1024, attnK Q K V eps dv b n o * wp o' o) + bias o'

/-- The second half of the dense arrangement on ANY combined matrix `kv` of 2048 columns: a query row meets the first
    1024 columns for the numerator and the last 1024 for the normaliser, the quotient meets `wt` (indexed input channel
    first) and the bias is added. -/
def applyQ (kv : Fin 4 → Fin 1024 → Fin 2048 → EReal) (wt : Fin 1024 → Fin 1024 → EReal) (b : Fin 4) (n : Fin 4096) (o' : Fin 1024) : EReal :=
  (∑ o : Fin 1024, dv (∑ f : Fin 1024, Q b n f * kv b f ⟨o.val, by have := o.isLt; omega⟩)
      ((∑ f : Fin 1024, Q b n f * kv b f ⟨1024 + o.val, by have := o.isLt; omega⟩) + eps) * wt o o') + bias o'

/-! ## The per-head arrangement -/

/-- A head's values with a row of ones appended (row 32). -/
def vpad (b : Fin 4) (hh : Fin 32) (d : Fin 33) (n : Fin 4096) : EReal :=
  if h : d.val < 32 then V b n (ch hh ⟨d.val, h⟩) else 1
def vk (b : Fin 4) (hh : Fin 32) (d : Fin 33) (e : Fin 32) : EReal := ∑ n : Fin 4096, vpad V b hh d n * K b n (ch hh e)
def o18 (b : Fin 4) (hh : Fin 32) (d : Fin 33) (n : Fin 4096) : EReal := ∑ e : Fin 32, vk K V b hh d e * Q b n (ch hh e)
def attnR (b : Fin 4) (hh : Fin 32) (d : Fin 32) (n : Fin 4096) : EReal :=
  dv (o18 Q K V b hh d.castSucc n) (o18 Q K V b hh (Fin.last 32) n + eps)
def denseR (b : Fin 4) (n : Fin 4096) (o : Fin 1024) : EReal :=
  (∑ c : Fin 1024, attnR Q K V eps dv b (headOf c) (posOf c) n * wp o c) + bias o

end Cert.LinAttn

end
-- ==== Proof.AttnAlgebra.lean ====
/-
  The dense arrangement and the per-head arrangement of ReLU-kernelised linear attention agree on the extended
  reals, for every choice of queries, keys, values, weights, bias, `eps` and dividing operation.

  A sum over all 1024 channels against the 0/1 head mask keeps exactly the 32 channels of one head: `x * 1 = x`
  and `x * 0 = 0` hold for every extended real, the infinities included. The channels are reindexed as pairs
  (head, position); what is then left differs from the per-head sums only by the order of the two factors of each
  product. Distributivity is never used (the extended reals are not a semiring).
-/
import proofs.«102062_j61297773248523_2_alg».proof.Proof.AttnSpec

noncomputable section

namespace Cert.LinAttn

/-! ## Channels as pairs (head, position) -/

/-- The index of channel `e` of head `hh` is `32 * hh + e`. -/
theorem ch_val (hh e : Fin 32) : (ch hh e).val = hh.val * 32 + e.val := rfl

/-- Dividing the index of channel `e` of head `hh` by 32 gives back `hh`, since `e < 32`. -/
theorem ch_val_div (hh e : Fin 32) : (ch hh e).val / 32 = hh.val := by
  have := e.isLt
  rw [ch_val]
  omega

/-- The head of channel `e` of head `hh` is `hh`. -/
theorem headOf_ch (hh e : Fin 32) : headOf (ch hh e) = hh :=
  Fin.ext (ch_val_div hh e)

/-- The position of channel `e` of head `hh` is `e`: `(32 * hh + e) % 32 = e` since `e < 32`. -/
theorem posOf_ch (hh e : Fin 32) : posOf (ch hh e) = e := by
  apply Fin.ext
  show (ch hh e).val % 32 = e.val
  have := e.isLt
  rw [ch_val]
  omega

/-- Every channel is the channel at its own position of its own head: `32 * (c / 32) + c % 32 = c`. -/
theorem ch_headOf_posOf (c : Fin 1024) : ch (headOf c) (posOf c) = c := by
  apply Fin.ext
  show c.val / 32 * 32 + c.val % 32 = c.val
  omega

/-- The 1024 channels are in bijection with the pairs (head, position). -/
def chEquiv : Fin 32 × Fin 32 ≃ Fin 1024 where
  toFun p := ch p.1 p.2
  invFun c := (headOf c, posOf c)
  left_inv p := by
    show (headOf (ch p.1 p.2), posOf (ch p.1 p.2)) = p
    rw [headOf_ch, posOf_ch]
  right_inv c := ch_headOf_posOf c

/-- A sum over all channels of a term that vanishes outside the head of channel `o` is the sum over the 32
channels of that head: split the sum by (head, position); every head other than `o`'s contributes a sum of
zeros. -/
theorem sum_head (g : Fin 1024 → EReal) (o : Fin 1024) :
    (∑ f : Fin 1024, if f.val / 32 = o.val / 32 then g f else 0) = ∑ e : Fin 32, g (ch (headOf o) e) := by
  rw [← Equiv.sum_comp chEquiv, Fintype.sum_prod_type]
  rw [Finset.sum_eq_single (headOf o)]
  · refine Finset.sum_congr rfl fun e _ => ?_
    exact if_pos (ch_val_div (headOf o) e)
  · intro hh _ hne
    refine Finset.sum_eq_zero fun e _ => ?_
    refine if_neg fun h => hne ?_
    apply Fin.ext
    have h1 : (ch hh e).val / 32 = o.val / 32 := h
    rw [ch_val_div] at h1
    exact h1
  · intro h
    exact absurd (Finset.mem_univ _) h

/-! ## The mask inside a product -/

variable (Q K V : Fin 4 → Fin 4096 → Fin 1024 → EReal)

/-- With the mask as last factor: the product is `x * y` when the two channels share a head (`y * 1 = y`) and
zero otherwise (`y * 0 = 0`, `x * 0 = 0`). -/
theorem mul_mul_mask (x y : EReal) (f o : Fin 1024) :
    x * (y * mask f o) = if f.val / 32 = o.val / 32 then x * y else 0 := by
  unfold mask
  split_ifs
  · rw [mul_one]
  · rw [mul_zero, mul_zero]

/-- With the mask as middle factor: the product is `x * y` when the two channels share a head (`1 * y = y`) and
zero otherwise (`0 * y = 0`, `x * 0 = 0`). -/
theorem mul_mask_mul (x y : EReal) (f o : Fin 1024) :
    x * (mask f o * y) = if f.val / 32 = o.val / 32 then x * y else 0 := by
  unfold mask
  split_ifs
  · rw [one_mul]
  · rw [zero_mul, mul_zero]

/-! ## The padded values -/

/-- Rows 0 to 31 of a head's padded values are the head's values. -/
theorem vpad_castSucc (b : Fin 4) (hh d : Fin 32) (n : Fin 4096) :
    vpad V b hh d.castSucc n = V b n (ch hh d) := by
  unfold vpad
  have h : (d.castSucc).val < 32 := d.isLt
  rw [dif_pos h]
  rfl

/-- Row 32 of a head's padded values is the row of ones, since `32 < 32` fails. -/
theorem vpad_last (b : Fin 4) (hh : Fin 32) (n : Fin 4096) : vpad V b hh (Fin.last 32) n = 1 := by
  unfold vpad
  have h : ¬ (Fin.last 32).val < 32 := Nat.lt_irrefl 32
  rw [dif_neg h]

/-! ## Numerator and normaliser -/

/-- The dense numerator at channel `c` is the per-head product at `c`'s head and position: the mask keeps the
channels `f` of `c`'s head, and for each of them `Q f * ∑ n', K f * V c = (∑ n', V c * K f) * Q f` by
commutativity of each product. -/
theorem outNum_eq (b : Fin 4) (n : Fin 4096) (c : Fin 1024) :
    outNum Q K V b n c = o18 Q K V b (headOf c) (posOf c).castSucc n := by
  unfold outNum o18
  simp only [mul_mul_mask]
  rw [sum_head (fun f => Q b n f * numK K V b f c) c]
  refine Finset.sum_congr rfl fun e _ => ?_
  rw [mul_comm]
  congr 1
  unfold numK vk
  refine Finset.sum_congr rfl fun n' _ => ?_
  rw [vpad_castSucc, ch_headOf_posOf, mul_comm]

/-- The dense normaliser at channel `c` is the per-head product at `c`'s head and the row of ones: the mask keeps
the channels `f` of `c`'s head, and for each of them `Q f * ∑ n', K f = (∑ n', 1 * K f) * Q f`. -/
theorem outDen_eq (b : Fin 4) (n : Fin 4096) (c : Fin 1024) :
    outDen Q K b n c = o18 Q K V b (headOf c) (Fin.last 32) n := by
  unfold outDen o18
  simp only [mul_mask_mul]
  rw [sum_head (fun f => Q b n f * denK K b f) c]
  refine Finset.sum_congr rfl fun e _ => ?_
  rw [mul_comm]
  congr 1
  unfold denK vk
  refine Finset.sum_congr rfl fun n' _ => ?_
  rw [vpad_last, one_mul]

/-! ## The two arrangements agree -/

/-- The dense arrangement equals the per-head arrangement: channel by channel the numerators and the normalisers
agree, so the same dividing operation is applied to the same two arguments, and the dense layer that follows is
the same sum. -/
theorem denseK_eq_denseR (Q K V : Fin 4 → Fin 4096 → Fin 1024 → EReal) (wp : Fin 1024 → Fin 1024 → EReal)
    (bias : Fin 1024 → EReal) (eps : EReal) (dv : EReal → EReal → EReal) (b : Fin 4) (n : Fin 4096)
    (o : Fin 1024) :
    denseK Q K V wp bias eps dv b n o = denseR Q K V wp bias eps dv b n o := by
  unfold denseK denseR attnK attnR
  simp only [outNum_eq, outDen_eq Q K V]

end Cert.LinAttn

end
-- ==== Proof.RefValue.lean ====
/-
  The reference program's result, read index by index, is the per-head arrangement of ReLU-kernelised linear attention
  followed by a dense layer: element (b, n, o) of the last stage equals `denseR` of the three projections of the input
  (queries and keys through `max · 0`), the output weights, the bias, the constant added to the normaliser and the
  ideal division. Each lemma below reads one stage, or a short run of layout stages, at explicit coordinates.
-/
import proofs.«102062_j61297773248523_2_alg».proof.Defs
import proofs.«102062_j61297773248523_2_alg».proof.Proof.Gen.ReferenceIdeal.Run
import proofs.«102062_j61297773248523_2_alg».proof.Proof.Gen.ReferenceIdeal.Read
import proofs.«102062_j61297773248523_2_alg».proof.Proof.AttnSpec
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Read Cert.LinAttn Idealize.ShloMosaic Idealize.ShloMosaic.ValueIdx

/-- The first contraction: element (b, n, o) is the sum over the input channels c of x(b, n, c) * w(o, c). -/
theorem v0_at (x0 : S4x4096x1024.Idx → EReal) (x1 : S3072x1024.Idx → EReal) (b : Fin 4) (n : Fin 4096) (o : Fin 3072) :
    val_main_v0 (F := Ideal) x0 x1 (ix3 b n o) = ∑ c : Fin 1024, arr3 x0 b n c * arr2 x1 o c := by
  rw [val_main_v0_apply]
  refine Finset.sum_congr rfl fun k _ => ?_
  have el : lidx_main_v0 (ix3 b n o) k = ix3 b n k := funext fun a => by
    match a with
    | ⟨0, _⟩ => rfl
    | ⟨1, _⟩ => rfl
    | ⟨2, _⟩ => rfl
  have er : ridx_main_v0 (ix3 b n o) k = ix2 o k := funext fun a => by
    match a with
    | ⟨0, _⟩ => rfl
    | ⟨1, _⟩ => rfl
  rw [el, er]
  rfl

/-- After the reshape to [4, 4096, 3, 1024] and the transpose to [4, 3, 1024, 4096], element (b, t, f, n) is element
    (b, n, t * 1024 + f) of the first contraction. -/
theorem v2_at (x0 : S4x4096x1024.Idx → EReal) (x1 : S3072x1024.Idx → EReal) (b : Fin 4) (t : Fin 3) (f : Fin 1024) (n : Fin 4096)
    (o : Fin 3072) (ho : o.val = t.val * 1024 + f.val) :
    val_main_v2 (F := Ideal) x0 x1 (ix4 b t f n) = val_main_v0 (F := Ideal) x0 x1 (ix3 b n o) := by
  rw [val_main_v2_apply, val_main_v1_apply]
  congr 1
  funext a
  apply Fin.ext
  have hb := b.isLt; have ht := t.isLt; have hf := f.isLt; have hn := n.isLt
  match a with
  | ⟨0, _⟩ => show (((b.val * 4096 + n.val) * 3 + t.val) * 1024 + f.val) / 12582912 = b.val; omega
  | ⟨1, _⟩ => show (((b.val * 4096 + n.val) * 3 + t.val) * 1024 + f.val) / 3072 % 4096 = n.val; omega
  | ⟨2, _⟩ => show (((b.val * 4096 + n.val) * 3 + t.val) * 1024 + f.val) % 3072 = o.val; omega

/-- The slice at block t = 0 and its reshape to [4, 1024, 4096]: element (b, f, n) is element (b, 0, f, n). -/
theorem v4_at (x0 : S4x4096x1024.Idx → EReal) (x1 : S3072x1024.Idx → EReal) (b : Fin 4) (f : Fin 1024) (n : Fin 4096) :
    val_main_v4 (F := Ideal) x0 x1 (ix3 b f n) = val_main_v2 (F := Ideal) x0 x1 (ix4 b (0 : Fin 3) f n) := by
  rw [val_main_v4_apply, val_main_v3_apply]
  congr 1
  funext a
  apply Fin.ext
  have hb := b.isLt; have hf := f.isLt; have hn := n.isLt
  match a with
  | ⟨0, _⟩ => show ((b.val * 1024 + f.val) * 4096 + n.val) / 4194304 = b.val; omega
  | ⟨1, _⟩ => rfl
  | ⟨2, _⟩ => show ((b.val * 1024 + f.val) * 4096 + n.val) / 4096 % 1024 = f.val; omega
  | ⟨3, _⟩ => show ((b.val * 1024 + f.val) * 4096 + n.val) % 4096 = n.val; omega

/-- The slice at block t = 1 and its reshape: element (b, f, n) is element (b, 1, f, n). -/
theorem v6_at (x0 : S4x4096x1024.Idx → EReal) (x1 : S3072x1024.Idx → EReal) (b : Fin 4) (f : Fin 1024) (n : Fin 4096) :
    val_main_v6 (F := Ideal) x0 x1 (ix3 b f n) = val_main_v2 (F := Ideal) x0 x1 (ix4 b (1 : Fin 3) f n) := by
  rw [val_main_v6_apply, val_main_v5_apply]
  congr 1
  funext a
  apply Fin.ext
  have hb := b.isLt; have hf := f.isLt; have hn := n.isLt
  match a with
  | ⟨0, _⟩ => show ((b.val * 1024 + f.val) * 4096 + n.val) / 4194304 = b.val; omega
  | ⟨1, _⟩ => rfl
  | ⟨2, _⟩ => show ((b.val * 1024 + f.val) * 4096 + n.val) / 4096 % 1024 = f.val; omega
  | ⟨3, _⟩ => show ((b.val * 1024 + f.val) * 4096 + n.val) % 4096 = n.val; omega

/-- The slice at block t = 2 and its reshape: element (b, f, n) is element (b, 2, f, n). -/
theorem v8_at (x0 : S4x4096x1024.Idx → EReal) (x1 : S3072x1024.Idx → EReal) (b : Fin 4) (f : Fin 1024) (n : Fin 4096) :
    val_main_v8 (F := Ideal) x0 x1 (ix3 b f n) = val_main_v2 (F := Ideal) x0 x1 (ix4 b (2 : Fin 3) f n) := by
  rw [val_main_v8_apply, val_main_v7_apply]
  congr 1
  funext a
  apply Fin.ext
  have hb := b.isLt; have hf := f.isLt; have hn := n.isLt
  match a with
  | ⟨0, _⟩ => show ((b.val * 1024 + f.val) * 4096 + n.val) / 4194304 = b.val; omega
  | ⟨1, _⟩ => rfl
  | ⟨2, _⟩ => show ((b.val * 1024 + f.val) * 4096 + n.val) / 4096 % 1024 = f.val; omega
  | ⟨3, _⟩ => show ((b.val * 1024 + f.val) * 4096 + n.val) % 4096 = n.val; omega

/-- The reshape of 1024 channels into 32 heads of 32: coordinates (b, hh, e, n) of the result name coordinates
    (b, hh * 32 + e, n) of the operand. -/
theorem split_heads (b : Fin 4) (hh e : Fin 32) (n : Fin 4096) :
    idx_main_v9 (ix4 b hh e n) = ix3 b (ch hh e) n := by
  funext a
  apply Fin.ext
  have hb := b.isLt; have hh' := hh.isLt; have he := e.isLt; have hn := n.isLt
  match a with
  | ⟨0, _⟩ => show (((b.val * 32 + hh.val) * 32 + e.val) * 4096 + n.val) / 4194304 = b.val; omega
  | ⟨1, _⟩ => show (((b.val * 32 + hh.val) * 32 + e.val) * 4096 + n.val) / 4096 % 1024 = hh.val * 32 + e.val; omega
  | ⟨2, _⟩ => show (((b.val * 32 + hh.val) * 32 + e.val) * 4096 + n.val) % 4096 = n.val; omega

/-- The query block by heads: element (b, hh, e, n) is element (b, hh * 32 + e, n) of the first slice. -/
theorem v9_at (x0 : S4x4096x1024.Idx → EReal) (x1 : S3072x1024.Idx → EReal) (b : Fin 4) (hh e : Fin 32) (n : Fin 4096) :
    val_main_v9 (F := Ideal) x0 x1 (ix4 b hh e n) = val_main_v4 (F := Ideal) x0 x1 (ix3 b (ch hh e) n) := by
  rw [val_main_v9_apply, split_heads]

/-- The key block by heads: element (b, hh, e, n) is element (b, hh * 32 + e, n) of the second slice. -/
theorem v11_at (x0 : S4x4096x1024.Idx → EReal) (x1 : S3072x1024.Idx → EReal) (b : Fin 4) (hh e : Fin 32) (n : Fin 4096) :
    val_main_v11 (F := Ideal) x0 x1 (ix4 b hh e n) = val_main_v6 (F := Ideal) x0 x1 (ix3 b (ch hh e) n) := by
  rw [val_main_v11_apply]
  exact congrArg _ (split_heads b hh e n)

/-- The value block by heads: element (b, hh, d, n) is element (b, hh * 32 + d, n) of the third slice. -/
theorem v14_at (x0 : S4x4096x1024.Idx → EReal) (x1 : S3072x1024.Idx → EReal) (b : Fin 4) (hh d : Fin 32) (n : Fin 4096) :
    val_main_v14 (F := Ideal) x0 x1 (ix4 b hh d n) = val_main_v8 (F := Ideal) x0 x1 (ix3 b (ch hh d) n) := by
  rw [val_main_v14_apply]
  exact congrArg _ (split_heads b hh d n)

/-- The query stage: the maximum with the broadcast zero of the query block, element (b, hh, e, n), is the query
    projection at batch b, token n and channel hh * 32 + e. -/
theorem v10_at (x0 : S4x4096x1024.Idx → EReal) (x1 : S3072x1024.Idx → EReal) (b : Fin 4) (hh e : Fin 32) (n : Fin 4096) :
    val_main_v10 (F := Ideal) x0 x1 (ix4 b hh e n) = qOf (arr3 x0) (arr2 x1) b n (ch hh e) := by
  rw [val_main_v10_apply, val_main_call0_v0_apply, val_main_call0_cst_apply, v9_at, v4_at,
    v2_at x0 x1 b 0 (ch hh e) n ⟨(ch hh e).val, by have := (ch hh e).isLt; omega⟩ (by show (ch hh e).val = 0 * 1024 + (ch hh e).val; omega), v0_at,
    Ideal.maximumf_def, Ideal.ofBits_def, Ideal.ofBits_zero_f32]
  rfl

/-- The key stage: the maximum with the broadcast zero of the key block, element (b, hh, e, n), is the key projection
    at batch b, token n and channel hh * 32 + e. -/
theorem v12_at (x0 : S4x4096x1024.Idx → EReal) (x1 : S3072x1024.Idx → EReal) (b : Fin 4) (hh e : Fin 32) (n : Fin 4096) :
    val_main_v12 (F := Ideal) x0 x1 (ix4 b hh e n) = kOf (arr3 x0) (arr2 x1) b n (ch hh e) := by
  rw [val_main_v12_apply, val_main_call1_v0_apply, val_main_call1_cst_apply, v11_at, v6_at,
    v2_at x0 x1 b 1 (ch hh e) n ⟨1024 + (ch hh e).val, by have := (ch hh e).isLt; omega⟩ (by show 1024 + (ch hh e).val = 1 * 1024 + (ch hh e).val; omega), v0_at,
    Ideal.maximumf_def, Ideal.ofBits_def, Ideal.ofBits_zero_f32]
  rfl

/-- The transposed key stage: element (b, hh, n, e) is the key projection at batch b, token n, channel hh * 32 + e. -/
theorem v13_at (x0 : S4x4096x1024.Idx → EReal) (x1 : S3072x1024.Idx → EReal) (b : Fin 4) (hh : Fin 32) (n : Fin 4096) (e : Fin 32) :
    val_main_v13 (F := Ideal) x0 x1 (ix4 b hh n e) = kOf (arr3 x0) (arr2 x1) b n (ch hh e) := by
  rw [val_main_v13_apply, ← v12_at]
  congr 1
  funext a
  match a with
  | ⟨0, _⟩ => rfl
  | ⟨1, _⟩ => rfl
  | ⟨2, _⟩ => rfl
  | ⟨3, _⟩ => rfl

/-- The value block by heads, element (b, hh, d, n), is the value projection at batch b, token n, channel hh * 32 + d. -/
theorem v14_val (x0 : S4x4096x1024.Idx → EReal) (x1 : S3072x1024.Idx → EReal) (b : Fin 4) (hh d : Fin 32) (n : Fin 4096) :
    val_main_v14 (F := Ideal) x0 x1 (ix4 b hh d n) = vOf (arr3 x0) (arr2 x1) b n (ch hh d) := by
  rw [v14_at, v8_at,
    v2_at x0 x1 b 2 (ch hh d) n ⟨2048 + (ch hh d).val, by have := (ch hh d).isLt; omega⟩ (by show 2048 + (ch hh d).val = 2 * 1024 + (ch hh d).val; omega), v0_at]
  rfl

/-- The appended row: every element of the broadcast constant is one. -/
theorem v15_at (i : S4x32x1x4096.Idx) : val_main_v15 (F := Ideal) i = (1 : EReal) := by
  rw [val_main_v15_apply, val_main_cst_apply, Ideal.ofBits_def, Ideal.ofBits_one_f32]

/-- The values with a row of ones appended along the row axis: element (b, hh, d, n) is the value projection at
    channel hh * 32 + d for d below 32 and one at d = 32. -/
theorem v16_at (x0 : S4x4096x1024.Idx → EReal) (x1 : S3072x1024.Idx → EReal) (b : Fin 4) (hh : Fin 32) (d : Fin 33) (n : Fin 4096) :
    val_main_v16 (F := Ideal) x0 x1 (ix4 b hh d n) = vpad (vOf (arr3 x0) (arr2 x1)) b hh d n := by
  unfold val_main_v16 vpad
  by_cases h : d.val < 32
  · rw [dif_pos h, ← v14_val]
    exact concatenate_pair_apply_left (t := S4x32x33x4096) (s₁ := S4x32x32x4096) (s₂ := S4x32x1x4096) (2 : Fin 4) _ _ _ (ix4 b hh d n) rfl (ix4 b hh (⟨d.val, h⟩ : Fin 32) n) (fun a => by
      match a with
      | ⟨0, _⟩ => rfl
      | ⟨1, _⟩ => rfl
      | ⟨2, _⟩ => rfl
      | ⟨3, _⟩ => rfl)
  · rw [dif_neg h, ← v15_at (ix4 b hh (0 : Fin 1) n)]
    exact concatenate_pair_apply_right (t := S4x32x33x4096) (s₁ := S4x32x32x4096) (s₂ := S4x32x1x4096) (2 : Fin 4) _ _ _ (ix4 b hh d n) rfl rfl (ix4 b hh (0 : Fin 1) n) (fun a ha => by
      match a, ha with
      | ⟨0, _⟩, _ => rfl
      | ⟨1, _⟩, _ => rfl
      | ⟨2, _⟩, ha => exact absurd rfl ha
      | ⟨3, _⟩, _ => rfl) (by have := d.isLt; show 0 + 32 = d.val; omega)

/-- The padded values against the keys: element (b, hh, d, e) is the sum over the tokens n of the padded value at
    (b, hh, d, n) times the key projection at token n and channel hh * 32 + e. -/
theorem v17_at (x0 : S4x4096x1024.Idx → EReal) (x1 : S3072x1024.Idx → EReal) (b : Fin 4) (hh : Fin 32) (d : Fin 33) (e : Fin 32) :
    val_main_v17 (F := Ideal) x0 x1 (ix4 b hh d e)
      = vk (kOf (arr3 x0) (arr2 x1)) (vOf (arr3 x0) (arr2 x1)) b hh d e := by
  rw [val_main_v17_apply]
  unfold vk
  refine Finset.sum_congr rfl fun k _ => ?_
  have el : lidx_main_v17 (ix4 b hh d e) k = ix4 b hh d k := funext fun a => by
    match a with
    | ⟨0, _⟩ => rfl
    | ⟨1, _⟩ => rfl
    | ⟨2, _⟩ => rfl
    | ⟨3, _⟩ => rfl
  have er : ridx_main_v17 (ix4 b hh d e) k = ix4 b hh k e := funext fun a => by
    match a with
    | ⟨0, _⟩ => rfl
    | ⟨1, _⟩ => rfl
    | ⟨2, _⟩ => rfl
    | ⟨3, _⟩ => rfl
  rw [el, er, v16_at, v13_at]

/-- The result against the queries: element (b, hh, d, n) is the sum over the positions e of the previous stage at
    (b, hh, d, e) times the query projection at token n and channel hh * 32 + e. -/
theorem v18_at (x0 : S4x4096x1024.Idx → EReal) (x1 : S3072x1024.Idx → EReal) (b : Fin 4) (hh : Fin 32) (d : Fin 33) (n : Fin 4096) :
    val_main_v18 (F := Ideal) x0 x1 (ix4 b hh d n)
      = o18 (qOf (arr3 x0) (arr2 x1)) (kOf (arr3 x0) (arr2 x1)) (vOf (arr3 x0) (arr2 x1)) b hh d n := by
  rw [val_main_v18_apply]
  unfold o18
  refine Finset.sum_congr rfl fun k _ => ?_
  have el : lidx_main_v18 (ix4 b hh d n) k = ix4 b hh d k := funext fun a => by
    match a with
    | ⟨0, _⟩ => rfl
    | ⟨1, _⟩ => rfl
    | ⟨2, _⟩ => rfl
    | ⟨3, _⟩ => rfl
  have er : ridx_main_v18 (ix4 b hh d n) k = ix4 b hh k n := funext fun a => by
    match a with
    | ⟨0, _⟩ => rfl
    | ⟨1, _⟩ => rfl
    | ⟨2, _⟩ => rfl
    | ⟨3, _⟩ => rfl
  rw [el, er, v17_at, v10_at]

/-- The quotient stage: rows below 32 divided by row 32 plus the constant, element (b, hh, d, n). -/
theorem v24_at (x0 : S4x4096x1024.Idx → EReal) (x1 : S3072x1024.Idx → EReal) (b : Fin 4) (hh d : Fin 32) (n : Fin 4096) :
    val_main_v24 (F := Ideal) x0 x1 (ix4 b hh d n)
      = attnR (qOf (arr3 x0) (arr2 x1)) (kOf (arr3 x0) (arr2 x1)) (vOf (arr3 x0) (arr2 x1))
          (Ideal.ofBits .f32 0x26901D7D#32) Ideal.div b hh d n := by
  have e19 : idx_main_v19 (ix4 b hh d n) = ix4 b hh d.castSucc n := funext fun a => by
    match a with
    | ⟨0, _⟩ => rfl
    | ⟨1, _⟩ => rfl
    | ⟨2, _⟩ => rfl
    | ⟨3, _⟩ => rfl
  have e20 : idx_main_v20 (idx_main_v23 (ix4 b hh d n)) = ix4 b hh (Fin.last 32) n := funext fun a => by
    match a with
    | ⟨0, _⟩ => rfl
    | ⟨1, _⟩ => rfl
    | ⟨2, _⟩ => rfl
    | ⟨3, _⟩ => rfl
  rw [val_main_v24_apply, val_main_v19_apply, val_main_v23_apply, val_main_v22_apply, val_main_v20_apply,
    val_main_v21_apply, val_main_cst_0_apply, e19, e20, v18_at, v18_at, Ideal.hostDivf_def, Ideal.addf_def, Ideal.ofBits_def]
  rfl

/-- The heads merged back into 1024 channels and the transpose: element (b, n, c) is the quotient stage at head
    c / 32, position c % 32. -/
theorem v26_at (x0 : S4x4096x1024.Idx → EReal) (x1 : S3072x1024.Idx → EReal) (b : Fin 4) (n : Fin 4096) (c : Fin 1024) :
    val_main_v26 (F := Ideal) x0 x1 (ix3 b n c) = val_main_v24 (F := Ideal) x0 x1 (ix4 b (headOf c) (posOf c) n) := by
  rw [val_main_v26_apply, val_main_v25_apply]
  congr 1
  funext a
  apply Fin.ext
  have hb := b.isLt; have hc := c.isLt; have hn := n.isLt
  match a with
  | ⟨0, _⟩ => show ((b.val * 1024 + c.val) * 4096 + n.val) / 4194304 = b.val; omega
  | ⟨1, _⟩ => show ((b.val * 1024 + c.val) * 4096 + n.val) / 131072 % 32 = c.val / 32; omega
  | ⟨2, _⟩ => show ((b.val * 1024 + c.val) * 4096 + n.val) / 4096 % 32 = c.val % 32; omega
  | ⟨3, _⟩ => show ((b.val * 1024 + c.val) * 4096 + n.val) % 4096 = n.val; omega

/-- The reference's result at (b, n, o): the quotients against the output weights, plus the bias; this is the per-head
    arrangement `denseR` of the three projections of the input. -/
theorem ref_eq (x0 : S4x4096x1024.Idx → EReal) (x1 : S3072x1024.Idx → EReal) (x2 : S1024x1024.Idx → EReal) (x3 : S1024.Idx → EReal)
    (b : Fin 4) (n : Fin 4096) (o : Fin 1024) :
    val_main_v30 (F := Ideal) x0 x1 x2 x3 (ix3 b n o)
      = denseR (qOf (arr3 x0) (arr2 x1)) (kOf (arr3 x0) (arr2 x1)) (vOf (arr3 x0) (arr2 x1)) (arr2 x2) (arr1 x3)
          (Ideal.ofBits .f32 0x26901D7D#32) Ideal.div b n o := by
  rw [val_main_v30_apply, Ideal.addf_def, val_main_v27_apply, val_main_v29_apply, val_main_v28_apply]
  unfold denseR
  have eb : idx_main_v28 (idx_main_v29 (ix3 b n o)) = ix1 o := funext fun a => by
    match a with
    | ⟨0, _⟩ => rfl
  rw [eb]
  congr 1
  refine Finset.sum_congr rfl fun k _ => ?_
  have el : lidx_main_v27 (ix3 b n o) k = ix3 b n k := funext fun a => by
    match a with
    | ⟨0, _⟩ => rfl
    | ⟨1, _⟩ => rfl
    | ⟨2, _⟩ => rfl
  have er : ridx_main_v27 (ix3 b n o) k = ix2 o k := funext fun a => by
    match a with
    | ⟨0, _⟩ => rfl
    | ⟨1, _⟩ => rfl
  rw [el, er, v26_at, v24_at]
  rfl

end Cert.ReferenceIdeal.RefValue

end
-- ==== Proof.KernelRun.lean ====
/-
  The idealized kernel's run with its result named: every weakly fair execution of the two launches and the host
  operations around them terminates, nothing faulting, with the result array holding what the second launch's
  write-backs leave of it, and the four argument arrays as they were.
-/
import proofs.«102062_j61297773248523_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the fold of the second launch's write-backs of its output window over the
    contents that launch found, and each argument array ends as launched. -/
theorem run : θ_run defs (onTc (τ := τ) (main (F := F))) ⟨m, fun _ => 0, ρ⟩ (fun r => ∀ c : Dev nD,
      r.2.mem ((c.tc : Thread nD τ).loc main_v31) = (dat1 (V5 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v31 (by decide))).trans (W6_arr m ρ c 4),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.RunValue

end
-- ==== Proof.R0Pieces.lean ====
/-
  The first launch, one grid point at a time: what its body leaves in the three output blocks, as pure terms of the
  blocks it read. A grid point is (batch, token tile); the body projects the tile's 512 token rows to queries, keys and
  values, stores the queries, and adds the tile's key-transpose-times-value matrix and the tile's column sums of keys
  into two running blocks. At the first tile of a batch (case A) both running blocks are first reset to zero and the
  zero is what the body reads back; at every later tile (case B) it reads what the tile before left there.
-/
import proofs.«102062_j61297773248523_2_alg».proof.Proof.Gen.KernelIdeal.Frame
import proofs.«102062_j61297773248523_2_alg».proof.Proof.AttnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The queries block, at a later tile: the rectified product of the token tile with the query weights. -/
theorem qB (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : ¬cond0_0 i) (x0 : Vec F S1x512x1024 .f32) (x1 x2 x3 : Vec F S1024x1024 .bf16) (xo5 : Vec F S1x1024x1024 .f32) (xo6 : Vec F S1x1x1024 .f32) :
    out0_B_4 c i a2 h2 a3 h3 a4 h4 a5 h5 a6 h6 a7 h7 a8 h8 hc x0 x1 x2 x3 xo5 xo6 = k0_pay5 x0 x1 := by
  unfold out0_B_4
  rw [View.read_writes_eq_canon _ _ _ (cover0_B_4 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

/-- The queries block, at a batch's first tile: the same term. -/
theorem qA (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : cond0_0 i) (x0 : Vec F S1x512x1024 .f32) (x1 x2 x3 : Vec F S1024x1024 .bf16) :
    out0_A_4 c i a2 h2 a3 h3 a4 h4 a5 h5 a6 h6 a7 h7 a8 h8 hc x0 x1 x2 x3 = k0_pay5 x0 x1 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

/-- The key-value block, at a later tile: what the tile before left, plus this tile's keys-transpose times values. -/
theorem numB (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : ¬cond0_0 i) (x0 : Vec F S1x512x1024 .f32) (x1 x2 x3 : Vec F S1024x1024 .bf16) (xo5 : Vec F S1x1024x1024 .f32) (xo6 : Vec F S1x1x1024 .f32) :
    out0_B_5 c i a2 h2 a3 h3 a4 h4 a5 h5 a6 h6 a7 h7 a8 h8 hc x0 x1 x2 x3 xo5 xo6 = k0_pay1 (k0_pay9 x0 x2 x3 xo5) := by
  unfold out0_B_5
  rw [View.read_writes_eq_canon _ _ _ (cover0_B_5 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

/-- The key-sum block, at a later tile: what the tile before left, plus this tile's column sums of keys. -/
theorem denB (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : ¬cond0_0 i) (x0 : Vec F S1x512x1024 .f32) (x1 x2 x3 : Vec F S1024x1024 .bf16) (xo5 : Vec F S1x1024x1024 .f32) (xo6 : Vec F S1x1x1024 .f32) :
    out0_B_6 c i a2 h2 a3 h3 a4 h4 a5 h5 a6 h6 a7 h7 a8 h8 hc x0 x1 x2 x3 xo5 xo6 = k0_pay2 (k0_pay6 x0 x2) xo6 := by
  unfold out0_B_6
  rw [View.read_writes_eq_canon _ _ _ (cover0_B_6 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

/-- The key-value block, at a batch's first tile: the zero block just stored, plus this tile's product. -/
theorem numA (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : cond0_0 i) (x0 : Vec F S1x512x1024 .f32) (x1 x2 x3 : Vec F S1024x1024 .bf16) :
    out0_A_5 c i a2 h2 a3 h3 a4 h4 a5 h5 a6 h6 a7 h7 a8 h8 hc x0 x1 x2 x3 = k0_pay1 (k0_pay9 x0 x2 x3 k0_pay7) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x1024x1024) hz3, View.readCov_unit_zero (S := S1x1024x1024) _ hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

/-- The key-sum block, at a batch's first tile: the zero row just stored, plus this tile's column sums. -/
theorem denA (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .bf16) (h6 : a6.IsWhole) (a7 : Memref sig .tc .vmem S1x1024x1024 .f32) (h7 : a7.IsWhole) (a8 : Memref sig .tc .vmem S1x1x1024 .f32) (h8 : a8.IsWhole) (hc : cond0_0 i) (x0 : Vec F S1x512x1024 .f32) (x1 x2 x3 : Vec F S1024x1024 .bf16) :
    out0_A_6 c i a2 h2 a3 h3 a4 h4 a5 h5 a6 h6 a7 h7 a8 h8 hc x0 x1 x2 x3 = k0_pay2 (k0_pay6 x0 x2) k0_pay8 := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread, h7.read_unread, h8.read_unread, View.ld_unit_zero (S := S1x512x1024) hz3, View.ld_unit_zero (S := S1x1024x1024) hz3, View.ld_unit_zero (S := S1x1x1024) hz3, View.ld_unit_zero (S := S1024x1024) hz2]

end Cert.KernelIdeal.Region0

end
-- ==== Proof.R0Payload.lean ====
/-
  The first launch's body at an index, on the extended reals: each stored block as sums over the tile's rows and the
  1024 input channels. `x0` is the token tile (512 rows of 1024 channels, behind a unit batch axis), `x1 x2 x3` the
  transposed query, key and value weights (input channel first).
    queries block   (r, f)  ↦  max (∑ k, x0 (r, k) * x1 (k, f)) 0
    keys tile       (r, f)  ↦  max (∑ k, x0 (r, k) * x2 (k, f)) 0
    key-value step  (f, o)  ↦  previous (f, o) + ∑ r, keys (r, f) * (∑ k, x0 (r, k) * x3 (k, o))
    key-sum step    f       ↦  previous f + ∑ r, keys (r, f)
  A change of float format is the identity on the extended reals, a product into a zero accumulator is the plain sum,
  and a lane sum from zero is the sum over the reduced axis.
-/
import proofs.«102062_j61297773248523_2_alg».proof.Proof.Gen.KernelIdeal.Frame
import proofs.«102062_j61297773248523_2_alg».proof.Proof.AttnSpec
import proofs.«102062_j61297773248523_2_alg».proof.Proof.R0Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/-- Rows by columns: [512,1024] times [1024,1024], contracting the left operand's columns with the right's rows. -/
abbrev DA : DotDims S512x1024 S1024x1024 S512x1024 := dot_S512x1024_S1024x1024_S512x1024_1_0_0_1_n_n
/-- Columns by columns: [512,1024] times [512,1024], contracting the 512 rows of both. -/
abbrev DB : DotDims S512x1024 S512x1024 S1024x1024 := dot_S512x1024_S512x1024_S1024x1024_0_0_1_1_n_n

/-- The operand indices of the rows-by-columns product, coordinate by coordinate: output (r, f), inner position q. -/
theorem DA_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem DA_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem DA_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem DA_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The rows-by-columns product into a zero accumulator at (r, f) is the sum over the 1024 inner positions. -/
theorem mmA_apply {φ₁ φ₂ : FTy} (lhs : FVec Ideal S512x1024 φ₁) (rhs : FVec Ideal S1024x1024 φ₂) (r : Fin 512) (f : Fin 1024) :
    matmul DA none lhs rhs (constant S512x1024 .f32 0x00000000#32) (ix2 r f) = ∑ k : Fin 1024, lhs (ix2 r k) * rhs (ix2 k f) := by
  refine (Ideal.matmul_constant_zero_apply DA none lhs rhs (ix2 r f)).trans ?_
  rw [← Equiv.sum_comp (contrEquiv1 DA 1024 rfl rfl).symm]
  refine Finset.sum_congr rfl fun k _ => ?_
  have hk := contrEquiv1_symm_val DA 1024 rfl rfl k
  have el : DA.lhsIdx (ix2 r f) ((contrEquiv1 DA 1024 rfl rfl).symm k) = ix2 r k := funext fun a => Fin.ext (by
    match a with
    | ⟨0, _⟩ => exact DA_lhs0 _ _
    | ⟨1, _⟩ => exact (DA_lhs1 _ _).trans hk)
  have er : DA.rhsIdx (ix2 r f) ((contrEquiv1 DA 1024 rfl rfl).symm k) = ix2 k f := funext fun a => Fin.ext (by
    match a with
    | ⟨0, _⟩ => exact (DA_rhs0 _ _).trans hk
    | ⟨1, _⟩ => exact DA_rhs1 _ _)
  rw [el, er]

/-- The operand indices of the columns-by-columns product: output (f, o), row q. -/
theorem DB_lhs0 (i : S1024x1024.Idx) (q : dot_S512x1024_S512x1024_S1024x1024_0_0_1_1_n_n.contr.Idx) : (dot_S512x1024_S512x1024_S1024x1024_0_0_1_1_n_n.lhsIdx i q 0).val = (q ⟨0, by decide⟩).val :=
  dot_S512x1024_S512x1024_S1024x1024_0_0_1_1_n_n.lhsIdx_val_of_single rfl i q
theorem DB_lhs1 (i : S1024x1024.Idx) (q : dot_S512x1024_S512x1024_S1024x1024_0_0_1_1_n_n.contr.Idx) : (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem DB_rhs0 (i : S1024x1024.Idx) (q : dot_S512x1024_S512x1024_S1024x1024_0_0_1_1_n_n.contr.Idx) : (dot_S512x1024_S512x1024_S1024x1024_0_0_1_1_n_n.rhsIdx i q 0).val = (q ⟨0, by decide⟩).val :=
  dot_S512x1024_S512x1024_S1024x1024_0_0_1_1_n_n.rhsIdx_val_of_single rfl i q
theorem DB_rhs1 (i : S1024x1024.Idx) (q : dot_S512x1024_S512x1024_S1024x1024_0_0_1_1_n_n.contr.Idx) : (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The columns-by-columns product into a zero accumulator at (f, o) is the sum over the 512 rows. -/
theorem mmB_apply {φ₁ φ₂ : FTy} (lhs : FVec Ideal S512x1024 φ₁) (rhs : FVec Ideal S512x1024 φ₂) (f o : Fin 1024) :
    matmul DB none lhs rhs (constant S1024x1024 .f32 0x00000000#32) (ix2 f o) = ∑ r : Fin 512, lhs (ix2 r f) * rhs (ix2 r o) := by
  refine (Ideal.matmul_constant_zero_apply DB none lhs rhs (ix2 f o)).trans ?_
  rw [← Equiv.sum_comp (contrEquiv1 DB 512 rfl rfl).symm]
  refine Finset.sum_congr rfl fun k _ => ?_
  have hk := contrEquiv1_symm_val DB 512 rfl rfl k
  have el : DB.lhsIdx (ix2 f o) ((contrEquiv1 DB 512 rfl rfl).symm k) = ix2 k f := funext fun a => Fin.ext (by
    match a with
    | ⟨0, _⟩ => exact (DB_lhs0 _ _).trans hk
    | ⟨1, _⟩ => exact DB_lhs1 _ _)
  have er : DB.rhsIdx (ix2 f o) ((contrEquiv1 DB 512 rfl rfl).symm k) = ix2 k o := funext fun a => Fin.ext (by
    match a with
    | ⟨0, _⟩ => exact (DB_rhs0 _ _).trans hk
    | ⟨1, _⟩ => exact DB_rhs1 _ _)
  rw [el, er]

/-- The tile with its unit batch axis dropped and its format narrowed: the same numbers. -/
theorem pay3_apply (x0 : FVec Ideal S1x512x1024 .f32) (r : Fin 512) (k : Fin 1024) :
    k0_pay3 (F := Ideal) x0 (ix2 r k) = x0 (ix3 (0 : Fin 1) r k) :=
  shapeCast_1ab_ab_apply x0 shapeCasts_S1x512x1024_S512x1024 r k

/-- The tile's projection by a weight matrix at (r, f). -/
def proj (x0 : FVec Ideal S1x512x1024 .f32) (w : FVec Ideal S1024x1024 .bf16) (r : Fin 512) (f : Fin 1024) : EReal :=
  ∑ k : Fin 1024, x0 (ix3 (0 : Fin 1) r k) * w (ix2 k f)

theorem proj_apply (x0 : FVec Ideal S1x512x1024 .f32) (w : FVec Ideal S1024x1024 .bf16) (r : Fin 512) (f : Fin 1024) :
    matmul DA none (k0_pay3 (F := Ideal) x0) (shapeCast S1024x1024 w shapeCasts_S1024x1024_S1024x1024) (constant S512x1024 .f32 0x00000000#32) (ix2 r f)
      = proj x0 w r f := by
  refine (mmA_apply _ _ r f).trans ?_
  unfold proj
  refine Finset.sum_congr rfl fun k _ => ?_
  rw [pay3_apply, shapeCast_self]

theorem zero_f32 : (Scalar.ofBits (F := Ideal) .f32 0x00000000#32 : EReal) = 0 := Ideal.ofBits_zero_f32

/-- The keys tile at (r, f): the rectified projection by the key weights. -/
theorem pay4_apply (x0 : FVec Ideal S1x512x1024 .f32) (x2 : FVec Ideal S1024x1024 .bf16) (r : Fin 512) (f : Fin 1024) :
    k0_pay4 (F := Ideal) x0 x2 (ix2 r f) = max (proj x0 x2 r f) 0 := by
  unfold k0_pay4
  show max (matmul DA none (k0_pay3 (F := Ideal) x0) (shapeCast S1024x1024 x2 shapeCasts_S1024x1024_S1024x1024) (constant S512x1024 .f32 0x00000000#32) (ix2 r f))
    (Scalar.ofBits (F := Ideal) .f32 0x00000000#32) = _
  rw [proj_apply, zero_f32]

/-- The queries block at (u, r, f): the rectified projection by the query weights. -/
theorem pay5_apply (x0 : FVec Ideal S1x512x1024 .f32) (x1 : FVec Ideal S1024x1024 .bf16) (u : Fin 1) (r : Fin 512) (f : Fin 1024) :
    k0_pay5 (F := Ideal) x0 x1 (ix3 u r f) = max (proj x0 x1 r f) 0 := by
  unfold k0_pay5
  refine (shapeCast_ab_1ab_apply _ shapeCasts_S512x1024_S1x512x1024 u r f).trans ?_
  show max (matmul DA none (k0_pay3 (F := Ideal) x0) (shapeCast S1024x1024 x1 shapeCasts_S1024x1024_S1024x1024) (constant S512x1024 .f32 0x00000000#32) (ix2 r f))
    (Scalar.ofBits (F := Ideal) .f32 0x00000000#32) = _
  rw [proj_apply, zero_f32]

/-- The key-value step at (f, o): what was there, plus the sum over the tile's rows of key times value. -/
theorem pay9_apply (x0 : FVec Ideal S1x512x1024 .f32) (x2 x3 : FVec Ideal S1024x1024 .bf16) (v28 : FVec Ideal S1x1024x1024 .f32) (f o : Fin 1024) :
    k0_pay9 (F := Ideal) x0 x2 x3 v28 (ix2 f o) = v28 (ix3 (0 : Fin 1) f o) + ∑ r : Fin 512, max (proj x0 x2 r f) 0 * proj x0 x3 r o := by
  unfold k0_pay9
  show shapeCast S1024x1024 v28 shapeCasts_S1x1024x1024_S1024x1024 (ix2 f o)
      + matmul DB none (truncf .bf16 (k0_pay4 (F := Ideal) x0 x2) bitsLt_bf16_f32)
          (truncf .bf16 (matmul DA none (k0_pay3 (F := Ideal) x0) (shapeCast S1024x1024 x3 shapeCasts_S1024x1024_S1024x1024) (constant S512x1024 .f32 0x00000000#32)) bitsLt_bf16_f32)
          (constant S1024x1024 .f32 0x00000000#32) (ix2 f o) = _
  rw [shapeCast_1ab_ab_apply, mmB_apply]
  refine congrArg (v28 (ix3 (0 : Fin 1) f o) + ·) (Finset.sum_congr rfl fun r _ => ?_)
  show k0_pay4 (F := Ideal) x0 x2 (ix2 r f) * matmul DA none (k0_pay3 (F := Ideal) x0) (shapeCast S1024x1024 x3 shapeCasts_S1024x1024_S1024x1024) (constant S512x1024 .f32 0x00000000#32) (ix2 r o) = _
  rw [pay4_apply, proj_apply]

/-- A [1024,1024] block stored behind a unit axis reads back at (u, f, o) as the block at (f, o). -/
theorem pay1_apply (v30 : FVec Ideal S1024x1024 .f32) (u : Fin 1) (f o : Fin 1024) : k0_pay1 (F := Ideal) v30 (ix3 u f o) = v30 (ix2 f o) :=
  shapeCast_ab_1ab_apply v30 shapeCasts_S1024x1024_S1x1024x1024 u f o

/-- The tile's column sums of keys at f. -/
theorem pay6_apply (x0 : FVec Ideal S1x512x1024 .f32) (x2 : FVec Ideal S1024x1024 .bf16) (u : Fin 1) (f : Fin 1024) :
    k0_pay6 (F := Ideal) x0 x2 (ix2 u f) = ∑ r : Fin 512, max (proj x0 x2 r f) 0 := by
  unfold k0_pay6
  refine (shapeCast_a_1a_apply _ shapeCasts_S1024_S1x1024 u f).trans ?_
  refine (Ideal.multiReduction_add_single (k0_pay4 (F := Ideal) x0 x2) 0x00000000#32 reduces_S512x1024_S1024 (.inl rfl) rfl (ix1 f)).trans ?_
  show ∑ r : Fin 512, k0_pay4 (F := Ideal) x0 x2 (reduces_S512x1024_S1024.lift (ix1 f) r) = _
  refine Finset.sum_congr rfl fun r _ => ?_
  rw [show reduces_S512x1024_S1024.lift (ix1 f) r = ix2 r f from funext fun a => Fin.ext (by
    match a with
    | ⟨0, _⟩ => rfl
    | ⟨1, _⟩ => rfl)]
  exact pay4_apply x0 x2 r f

/-- The key-sum step at (u, i, f): what was there, plus this tile's column sum. -/
theorem pay2_apply (v24 : FVec Ideal S1x1024 .f32) (v34 : FVec Ideal S1x1x1024 .f32) (u i : Fin 1) (f : Fin 1024) :
    k0_pay2 (F := Ideal) v24 v34 (ix3 u i f) = v34 (ix3 (0 : Fin 1) i f) + v24 (ix2 i f) := by
  unfold k0_pay2
  refine (shapeCast_ab_1ab_apply _ shapeCasts_S1x1024_S1x1x1024 u i f).trans ?_
  show shapeCast S1x1024 v34 shapeCasts_S1x1x1024_S1x1024 (ix2 i f) + v24 (ix2 i f) = _
  rw [shapeCast_1ab_ab_apply]

/-- The reset blocks are zero everywhere. -/
theorem pay7_apply (i : S1x1024x1024.Idx) : k0_pay7 (F := Ideal) i = 0 := by
  obtain ⟨u, f, o, rfl⟩ : ∃ (u : Fin 1) (f o : Fin 1024), i = ix3 u f o := ⟨i 0, i 1, i 2, eq_ix3 i⟩
  unfold k0_pay7
  refine (shapeCast_ab_1ab_apply _ shapeCasts_S1024x1024_S1x1024x1024 u f o).trans ?_
  exact zero_f32
theorem pay8_apply (i : S1x1x1024.Idx) : k0_pay8 (F := Ideal) i = 0 := by
  obtain ⟨u, j, f, rfl⟩ : ∃ (u j : Fin 1) (f : Fin 1024), i = ix3 u j f := ⟨i 0, i 1, i 2, eq_ix3 i⟩
  unfold k0_pay8
  refine (shapeCast_ab_1ab_apply _ shapeCasts_S1x1024_S1x1x1024 u j f).trans ?_
  exact zero_f32

end Cert.KernelIdeal.Region0

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.R0Fold.lean ====
/-
  The first launch's three result arrays, each as one function of the arrays the launch found (the input `X` and the
  transposed query, key and value weights `Wq Wk Wv`, input channel first). A grid point t is (batch t / 8, token
  tile t % 8); row r of its tile is token 512 * (t % 8) + r. With
      prj W b n f = ∑ k, X (b, n, k) * W (k, f)
  the queries array ends at max (prj Wq b n f) 0; the key-value array at (b, f, o) ends at
      ∑ n, max (prj Wk b n f) 0 * prj Wv b n o
  and the key-sum array at (b, ·, f) at ∑ n, max (prj Wk b n f) 0 — each running block is zero plus the eight tiles'
  addends, in tile order, and a sum over 8 tiles of 512 rows is the sum over the 4096 tokens. The queries block is
  written back at every point; the two running blocks only after a batch's last tile, when they hold the whole fold.
-/
import proofs.«102062_j61297773248523_2_alg».proof.Proof.Gen.KernelIdeal.Frame
import proofs.«102062_j61297773248523_2_alg».proof.Proof.AttnSpec
import proofs.«102062_j61297773248523_2_alg».proof.Proof.R0Payload
import proofs.«102062_j61297773248523_2_alg».proof.Proof.LibFiniteSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b)) (c : Dev nD)

/-! ## Where a point's blocks lie -/

/-- The block indices of the seven windows at every point, decided over the 32 points: the token tile and the queries
    block move with (batch, tile); the weights stay; the running blocks move with the batch only. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- A point's batch, and the token of row `r` of its tile. -/
def bOf (t : Fin cfg0.N) : Fin 4 := ⟨t.val / 8, by have hN : cfg0.N = 32 := N_0; have := t.isLt; omega⟩
def nOf (t : Fin cfg0.N) (r : Fin 512) : Fin 4096 := ⟨r.val + 512 * (t.val % 8), by have := r.isLt; omega⟩

/-- The token tile at a point reads the input at (batch, token, channel). -/
theorem blk_x (t : Fin cfg0.N) (r : Fin 512) (k : Fin 1024) :
    (iblk0 V c 0 t : S1x512x1024.Idx → EReal) (ix3 (0 : Fin 1) r k)
      = (V c main_arg0 : S4x4096x1024.Idx → EReal) (ix3 (bOf t) (nOf t r) k) := by
  obtain ⟨e0, e1, e2, -⟩ := idx0 t
  unfold iblk0
  rw [View.read_apply]
  show V c main_arg0 (((cfg0.win 0).blk t).view.emb (ix3 (0 : Fin 1) r k)) = _
  refine congrArg (V c main_arg0) (funext fun a => Fin.ext ?_)
  match a with
  | ⟨0, _⟩ => show win0_0.index t (0 : Fin 3) * 1 + 1 * 0 = t.val / 8; omega
  | ⟨1, _⟩ => show win0_0.index t (1 : Fin 3) * 512 + 1 * r.val = r.val + 512 * (t.val % 8); omega
  | ⟨2, _⟩ => show win0_0.index t (2 : Fin 3) * 1024 + 1 * k.val = k.val; omega

/-- Each weight window's block is the whole weight array, at every point. -/
theorem blk_w1 (t : Fin cfg0.N) (k f : Fin 1024) :
    (iblk0 V c 1 t : S1024x1024.Idx → EReal) (ix2 k f) = (V c main_v4 : S1024x1024.Idx → EReal) (ix2 k f) := by
  obtain ⟨-, -, -, e0, e1, -⟩ := idx0 t
  unfold iblk0
  rw [View.read_apply]
  show V c main_v4 (((cfg0.win 1).blk t).view.emb (ix2 k f)) = _
  refine congrArg (V c main_v4) (funext fun a => Fin.ext ?_)
  match a with
  | ⟨0, _⟩ => show win0_1.index t (0 : Fin 2) * 1024 + 1 * k.val = k.val; omega
  | ⟨1, _⟩ => show win0_1.index t (1 : Fin 2) * 1024 + 1 * f.val = f.val; omega
theorem blk_w2 (t : Fin cfg0.N) (k f : Fin 1024) :
    (iblk0 V c 2 t : S1024x1024.Idx → EReal) (ix2 k f) = (V c main_v6 : S1024x1024.Idx → EReal) (ix2 k f) := by
  obtain ⟨-, -, -, -, -, e0, e1, -⟩ := idx0 t
  unfold iblk0
  rw [View.read_apply]
  show V c main_v6 (((cfg0.win 2).blk t).view.emb (ix2 k f)) = _
  refine congrArg (V c main_v6) (funext fun a => Fin.ext ?_)
  match a with
  | ⟨0, _⟩ => show win0_2.index t (0 : Fin 2) * 1024 + 1 * k.val = k.val; omega
  | ⟨1, _⟩ => show win0_2.index t (1 : Fin 2) * 1024 + 1 * f.val = f.val; omega
theorem blk_w3 (t : Fin cfg0.N) (k f : Fin 1024) :
    (iblk0 V c 3 t : S1024x1024.Idx → EReal) (ix2 k f) = (V c main_v8 : S1024x1024.Idx → EReal) (ix2 k f) := by
  obtain ⟨-, -, -, -, -, -, -, e0, e1, -⟩ := idx0 t
  unfold iblk0
  rw [View.read_apply]
  show V c main_v8 (((cfg0.win 3).blk t).view.emb (ix2 k f)) = _
  refine congrArg (V c main_v8) (funext fun a => Fin.ext ?_)
  match a with
  | ⟨0, _⟩ => show win0_3.index t (0 : Fin 2) * 1024 + 1 * k.val = k.val; omega
  | ⟨1, _⟩ => show win0_3.index t (1 : Fin 2) * 1024 + 1 * f.val = f.val; omega

/-- The input's projection by a weight array at (batch, token, output channel). -/
def prj (X : S4x4096x1024.Idx → EReal) (W : S1024x1024.Idx → EReal) (b : Fin 4) (n : Fin 4096) (f : Fin 1024) : EReal :=
  ∑ k : Fin 1024, X (ix3 b n k) * W (ix2 k f)

theorem proj_blk1 (t : Fin cfg0.N) (r : Fin 512) (f : Fin 1024) :
    proj (iblk0 V c 0 t) (iblk0 V c 1 t) r f = prj (V c main_arg0) (V c main_v4) (bOf t) (nOf t r) f := by
  unfold proj prj
  refine Finset.sum_congr rfl fun k _ => ?_
  rw [blk_x V c t r k, blk_w1 V c t k f]
theorem proj_blk2 (t : Fin cfg0.N) (r : Fin 512) (f : Fin 1024) :
    proj (iblk0 V c 0 t) (iblk0 V c 2 t) r f = prj (V c main_arg0) (V c main_v6) (bOf t) (nOf t r) f := by
  unfold proj prj
  refine Finset.sum_congr rfl fun k _ => ?_
  rw [blk_x V c t r k, blk_w2 V c t k f]
theorem proj_blk3 (t : Fin cfg0.N) (r : Fin 512) (f : Fin 1024) :
    proj (iblk0 V c 0 t) (iblk0 V c 3 t) r f = prj (V c main_arg0) (V c main_v8) (bOf t) (nOf t r) f := by
  unfold proj prj
  refine Finset.sum_congr rfl fun k _ => ?_
  rw [blk_x V c t r k, blk_w3 V c t k f]

/-! ## The queries array -/

/-- What the queries array ends holding. -/
def Gq : S4x4096x1024.Idx → EReal := fun i => max (prj (V c main_arg0) (V c main_v4) (i 0) (i 1) (i 2)) 0

set_option maxHeartbeats 1000000 in
/-- After the body at any point the queries block is the rectified projection of the point's tile. -/
theorem after4 (t : Fin cfg0.N) : (outsAt0 V c t.val t.isLt).1 = k0_pay5 (F := Ideal) (iblk0 V c 0 t) (iblk0 V c 1 t) := by
  by_cases h0 : t.val % 8 = 0
  · rw [outsAt0_A V c t h0]
    dsimp only
    exact qA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact qB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- The queries block of point t sits at rows 512 * (t % 8) … of batch t / 8. -/
theorem emb4 (t : Fin cfg0.N) (u : Fin 1) (r : Fin 512) (f : Fin 1024) :
    ((cfg0.win 4).blk t).view.emb (ix3 u r f) = (ix3 (bOf t) (nOf t r) f : S4x4096x1024.Idx) := by
  obtain ⟨-, -, -, -, -, -, -, -, -, e0, e1, e2, -⟩ := idx0 t
  have hu : u.val = 0 := by omega
  funext a; apply Fin.ext
  match a with
  | ⟨0, _⟩ => show win0_4.index t (0 : Fin 3) * 1 + 1 * u.val = t.val / 8; omega
  | ⟨1, _⟩ => show win0_4.index t (1 : Fin 3) * 512 + 1 * r.val = r.val + 512 * (t.val % 8); omega
  | ⟨2, _⟩ => show win0_4.index t (2 : Fin 3) * 1024 + 1 * f.val = f.val; omega

/-- What point t writes back of the queries is its block of `Gq`. -/
theorem flushed4 (t : Fin cfg0.N) :
    (dat0 V c).flushed 4 t = ((cfg0.win 4).blk t).view.read (Elt Ideal) (Gq V c) := by
  show (cfg0.win 4).cut (grid0.coords t) ((dat0 V c).after 4 t) = _
  rw [after0_4, after4]
  funext y
  obtain ⟨u, r, f, rfl⟩ : ∃ (u : Fin 1) (r : Fin 512) (f : Fin 1024), y = ix3 u r f := ⟨y 0, y 1, y 2, eq_ix3 y⟩
  rw [View.read_apply, emb4]
  show k0_pay5 (F := Ideal) (iblk0 V c 0 t) (iblk0 V c 1 t) (ix3 u r f) = max (prj (V c main_arg0) (V c main_v4) (bOf t) (nOf t r) f) 0
  rw [pay5_apply, proj_blk1]

/-- An index of a window's array is in point t's block iff each coordinate is in the block's range. -/
theorem mem_blk4 (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v11_0).slice (win0_4.rect t)).set ↔ _
  rw [View.set_slice_whole, Rect.mem_set_unit]
  exact Iff.rfl

theorem final_q : (dat0 V c).arrAt 4 cfg0.N = Gq V c :=
  (dat0 V c).arrAt_eq_of_cover 4 (Gq V c) (fun t _ => flushed4 V c t) fun i => by
    have hN : cfg0.N = 32 := N_0
    have h0 : (i 0).val < 4 := (i 0).isLt
    have h1 : (i 1).val < 4096 := (i 1).isLt
    have h2 : (i 2).val < 1024 := (i 2).isLt
    let t : Fin cfg0.N := ⟨8 * (i 0).val + (i 1).val / 512, by omega⟩
    obtain ⟨-, -, -, -, -, -, -, -, -, e0, e1, e2, -⟩ := idx0 t
    have tv : t.val = 8 * (i 0).val + (i 1).val / 512 := rfl
    refine ⟨t, flush0_4 t, ?_⟩
    rw [mem_blk4]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 512 ≤ (i 1).val ∧ (i 1).val < win0_4.index t (1 : Fin 3) * 512 + 512; omega
    | ⟨2, _⟩ => show win0_4.index t (2 : Fin 3) * 1024 ≤ (i 2).val ∧ (i 2).val < win0_4.index t (2 : Fin 3) * 1024 + 1024; omega

/-! ## The key-value array: a fold over a batch's eight tiles -/

/-- Tile n's addend to the key-value block at (·, f, o): the sum over its rows of key (r, f) times value (r, o). -/
def Mnum (n : Nat) (i : S1x1024x1024.Idx) : EReal :=
  if h : n < cfg0.N then
    ∑ r : Fin 512, max (proj (iblk0 V c 0 ⟨n, h⟩) (iblk0 V c 2 ⟨n, h⟩) r (i 1)) 0 * proj (iblk0 V c 0 ⟨n, h⟩) (iblk0 V c 3 ⟨n, h⟩) r (i 2)
  else 0

/-- The block after a batch's first tile, and the step at a later tile. -/
def aN (n : Nat) (h : n < cfg0.N) : S1x1024x1024.Idx → EReal :=
  k0_pay1 (F := Ideal) (k0_pay9 (F := Ideal) (iblk0 V c 0 ⟨n, h⟩) (iblk0 V c 2 ⟨n, h⟩) (iblk0 V c 3 ⟨n, h⟩) (k0_pay7 (F := Ideal)))
def gN (n : Nat) (h : n < cfg0.N) (acc : S1x1024x1024.Idx → EReal) : S1x1024x1024.Idx → EReal :=
  k0_pay1 (F := Ideal) (k0_pay9 (F := Ideal) (iblk0 V c 0 ⟨n, h⟩) (iblk0 V c 2 ⟨n, h⟩) (iblk0 V c 3 ⟨n, h⟩) acc)

theorem gN_apply (n : Nat) (h : n < cfg0.N) (acc : S1x1024x1024.Idx → EReal) (i : S1x1024x1024.Idx) :
    gN V c n h acc i = acc i + Mnum V c n i := by
  obtain ⟨u, f, o, rfl⟩ : ∃ (u : Fin 1) (f o : Fin 1024), i = ix3 u f o := ⟨i 0, i 1, i 2, eq_ix3 i⟩
  obtain rfl : u = 0 := Subsingleton.elim _ _
  unfold gN Mnum
  rw [dif_pos h, pay1_apply, pay9_apply]
theorem aN_apply (n : Nat) (h : n < cfg0.N) (i : S1x1024x1024.Idx) : aN V c n h i = 0 + Mnum V c n i := by
  obtain ⟨u, f, o, rfl⟩ : ∃ (u : Fin 1) (f o : Fin 1024), i = ix3 u f o := ⟨i 0, i 1, i 2, eq_ix3 i⟩
  obtain rfl : u = 0 := Subsingleton.elim _ _
  unfold aN Mnum
  rw [dif_pos h, pay1_apply, pay9_apply, pay7_apply]

set_option maxHeartbeats 1000000 in
theorem num_reset (t : Fin cfg0.N) (h0 : t.val % 8 = 0) : (outsAt0 V c t.val t.isLt).2.1 = aN V c t.val t.isLt := by
  unfold aN
  rw [outsAt0_A V c t h0]
  dsimp only
  exact numA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
set_option maxHeartbeats 1000000 in
theorem num_step (t : Fin cfg0.N) (hne : ¬t.val % 8 = 0) :
    (outsAt0 V c t.val t.isLt).2.1 = gN V c t.val t.isLt (outsAt0 V c (t.val - 1) (Nat.lt_of_le_of_lt (Nat.sub_le _ _) t.isLt)).2.1 := by
  unfold gN
  rw [outsAt0_B V c t hne]
  dsimp only
  exact numB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hne ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- After a batch's last tile the block is the sum of the batch's eight addends. -/
theorem num_at_flush (t : Fin cfg0.N) (h7 : t.val % 8 = 7) (i : S1x1024x1024.Idx) :
    (outsAt0 V c t.val t.isLt).2.1 i = ∑ s ∈ Finset.range 8, Mnum V c (8 * (t.val / 8) + s) i := by
  have hN : cfg0.N = 32 := N_0
  have h' : 8 * (t.val / 8) + t.val % 8 < cfg0.N := by have := t.isLt; omega
  rw [Pipeline.eq_accAt_of_mod (fun n h => (outsAt0 V c n h).2.1) 8 (aN V c) (gN V c)
    (fun n h h0 => num_reset V c ⟨n, h⟩ h0) (fun n h hne => num_step V c ⟨n + 1, h⟩ hne) (by decide) t.val t.isLt h']
  rw [Pipeline.accAt_add_apply (aN V c) (gN V c) (fun _ => 0) (Mnum V c) (8 * (t.val / 8)) 7
    (fun h i => aN_apply V c _ h i) (fun n h acc i _ _ => gN_apply V c n h acc i) (t.val % 8) (by omega) h' i, h7]
  exact zero_add _

/-- A tile's addend over the arrays: rows r of tile s of batch q are tokens r + 512 * s. -/
theorem Mnum_eq (q : Fin 4) (s : Fin 8) (u : Fin 1) (f o : Fin 1024) :
    Mnum V c (8 * q.val + s.val) (ix3 u f o)
      = ∑ r : Fin 512, max (prj (V c main_arg0) (V c main_v6) q ⟨r.val + 512 * s.val, by have := r.isLt; have := s.isLt; omega⟩ f) 0
          * prj (V c main_arg0) (V c main_v8) q ⟨r.val + 512 * s.val, by have := r.isLt; have := s.isLt; omega⟩ o := by
  have hN : cfg0.N = 32 := N_0
  have h : 8 * q.val + s.val < cfg0.N := by have := q.isLt; have := s.isLt; omega
  have hb : bOf ⟨8 * q.val + s.val, h⟩ = q := Fin.ext (by show (8 * q.val + s.val) / 8 = q.val; have := s.isLt; omega)
  have hn : ∀ r : Fin 512, nOf ⟨8 * q.val + s.val, h⟩ r = ⟨r.val + 512 * s.val, by have := r.isLt; have := s.isLt; omega⟩ :=
    fun r => Fin.ext (by show r.val + 512 * ((8 * q.val + s.val) % 8) = r.val + 512 * s.val; have := s.isLt; omega)
  unfold Mnum
  rw [dif_pos h]
  refine Finset.sum_congr rfl fun r _ => ?_
  rw [proj_blk2, proj_blk3, hb, hn r]

/-- What the key-value array ends holding. -/
def Gnum : S4x1024x1024.Idx → EReal := fun i =>
  ∑ n : Fin 4096, max (prj (V c main_arg0) (V c main_v6) (i 0) n (i 1)) 0 * prj (V c main_arg0) (V c main_v8) (i 0) n (i 2)

theorem emb5 (t : Fin cfg0.N) (u : Fin 1) (f o : Fin 1024) :
    ((cfg0.win 5).blk t).view.emb (ix3 u f o) = (ix3 (bOf t) f o : S4x1024x1024.Idx) := by
  obtain ⟨-, -, -, -, -, -, -, -, -, -, -, -, e0, e1, e2, -⟩ := idx0 t
  have hu : u.val = 0 := by omega
  funext a; apply Fin.ext
  match a with
  | ⟨0, _⟩ => show win0_5.index t (0 : Fin 3) * 1 + 1 * u.val = t.val / 8; omega
  | ⟨1, _⟩ => show win0_5.index t (1 : Fin 3) * 1024 + 1 * f.val = f.val; omega
  | ⟨2, _⟩ => show win0_5.index t (2 : Fin 3) * 1024 + 1 * o.val = o.val; omega

/-- What a batch's last point writes back of the key-value block is its block of `Gnum`. -/
theorem flushed5 (t : Fin cfg0.N) (hf : (cfg0.win 5).flush t = true) :
    (dat0 V c).flushed 5 t = ((cfg0.win 5).blk t).view.read (Elt Ideal) (Gnum V c) := by
  have h7 : t.val % 8 = 7 := (flush0_5 t).mp hf
  show (cfg0.win 5).cut (grid0.coords t) ((dat0 V c).after 5 t) = _
  rw [after0_5]
  funext y
  obtain ⟨u, f, o, rfl⟩ : ∃ (u : Fin 1) (f o : Fin 1024), y = ix3 u f o := ⟨y 0, y 1, y 2, eq_ix3 y⟩
  rw [View.read_apply, emb5]
  show (outsAt0 V c t.val t.isLt).2.1 (ix3 u f o)
    = ∑ n : Fin 4096, max (prj (V c main_arg0) (V c main_v6) (bOf t) n f) 0 * prj (V c main_arg0) (V c main_v8) (bOf t) n o
  rw [num_at_flush V c t h7, Finset.sum_range, Cert.LibFiniteSums.sum_split 8 512 4096 rfl]
  exact Finset.sum_congr rfl fun s _ => Mnum_eq V c (bOf t) s u f o

theorem mem_blk5 (t : Fin cfg0.N) (i : S4x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v11_1).slice (win0_5.rect t)).set ↔ _
  rw [View.set_slice_whole, Rect.mem_set_unit]
  exact Iff.rfl

theorem final_num : (dat0 V c).arrAt 5 cfg0.N = Gnum V c :=
  (dat0 V c).arrAt_eq_of_cover 5 (Gnum V c) (fun t hf => flushed5 V c t hf) fun i => by
    have hN : cfg0.N = 32 := N_0
    have h0 : (i 0).val < 4 := (i 0).isLt
    have h1 : (i 1).val < 1024 := (i 1).isLt
    have h2 : (i 2).val < 1024 := (i 2).isLt
    let t : Fin cfg0.N := ⟨8 * (i 0).val + 7, by omega⟩
    obtain ⟨-, -, -, -, -, -, -, -, -, -, -, -, e0, e1, e2, -⟩ := idx0 t
    have tv : t.val = 8 * (i 0).val + 7 := rfl
    refine ⟨t, (flush0_5 t).mpr (by omega), ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1024 ≤ (i 1).val ∧ (i 1).val < win0_5.index t (1 : Fin 3) * 1024 + 1024; omega
    | ⟨2, _⟩ => show win0_5.index t (2 : Fin 3) * 1024 ≤ (i 2).val ∧ (i 2).val < win0_5.index t (2 : Fin 3) * 1024 + 1024; omega

/-! ## The key-sum array: the same fold, one factor fewer -/

def Mden (n : Nat) (i : S1x1x1024.Idx) : EReal :=
  if h : n < cfg0.N then ∑ r : Fin 512, max (proj (iblk0 V c 0 ⟨n, h⟩) (iblk0 V c 2 ⟨n, h⟩) r (i 2)) 0 else 0
def aD (n : Nat) (h : n < cfg0.N) : S1x1x1024.Idx → EReal :=
  k0_pay2 (F := Ideal) (k0_pay6 (F := Ideal) (iblk0 V c 0 ⟨n, h⟩) (iblk0 V c 2 ⟨n, h⟩)) (k0_pay8 (F := Ideal))
def gD (n : Nat) (h : n < cfg0.N) (acc : S1x1x1024.Idx → EReal) : S1x1x1024.Idx → EReal :=
  k0_pay2 (F := Ideal) (k0_pay6 (F := Ideal) (iblk0 V c 0 ⟨n, h⟩) (iblk0 V c 2 ⟨n, h⟩)) acc

theorem gD_apply (n : Nat) (h : n < cfg0.N) (acc : S1x1x1024.Idx → EReal) (i : S1x1x1024.Idx) :
    gD V c n h acc i = acc i + Mden V c n i := by
  obtain ⟨u, j, f, rfl⟩ : ∃ (u j : Fin 1) (f : Fin 1024), i = ix3 u j f := ⟨i 0, i 1, i 2, eq_ix3 i⟩
  obtain rfl : u = 0 := Subsingleton.elim _ _
  unfold gD Mden
  rw [dif_pos h, pay2_apply, pay6_apply]
theorem aD_apply (n : Nat) (h : n < cfg0.N) (i : S1x1x1024.Idx) : aD V c n h i = 0 + Mden V c n i := by
  obtain ⟨u, j, f, rfl⟩ : ∃ (u j : Fin 1) (f : Fin 1024), i = ix3 u j f := ⟨i 0, i 1, i 2, eq_ix3 i⟩
  obtain rfl : u = 0 := Subsingleton.elim _ _
  unfold aD Mden
  rw [dif_pos h, pay2_apply, pay6_apply, pay8_apply]

set_option maxHeartbeats 1000000 in
theorem den_reset (t : Fin cfg0.N) (h0 : t.val % 8 = 0) : (outsAt0 V c t.val t.isLt).2.2 = aD V c t.val t.isLt := by
  unfold aD
  rw [outsAt0_A V c t h0]
  dsimp only
  exact denA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
set_option maxHeartbeats 1000000 in
theorem den_step (t : Fin cfg0.N) (hne : ¬t.val % 8 = 0) :
    (outsAt0 V c t.val t.isLt).2.2 = gD V c t.val t.isLt (outsAt0 V c (t.val - 1) (Nat.lt_of_le_of_lt (Nat.sub_le _ _) t.isLt)).2.2 := by
  unfold gD
  rw [outsAt0_B V c t hne]
  dsimp only
  exact denB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hne ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

theorem den_at_flush (t : Fin cfg0.N) (h7 : t.val % 8 = 7) (i : S1x1x1024.Idx) :
    (outsAt0 V c t.val t.isLt).2.2 i = ∑ s ∈ Finset.range 8, Mden V c (8 * (t.val / 8) + s) i := by
  have hN : cfg0.N = 32 := N_0
  have h' : 8 * (t.val / 8) + t.val % 8 < cfg0.N := by have := t.isLt; omega
  rw [Pipeline.eq_accAt_of_mod (fun n h => (outsAt0 V c n h).2.2) 8 (aD V c) (gD V c)
    (fun n h h0 => den_reset V c ⟨n, h⟩ h0) (fun n h hne => den_step V c ⟨n + 1, h⟩ hne) (by decide) t.val t.isLt h']
  rw [Pipeline.accAt_add_apply (aD V c) (gD V c) (fun _ => 0) (Mden V c) (8 * (t.val / 8)) 7
    (fun h i => aD_apply V c _ h i) (fun n h acc i _ _ => gD_apply V c n h acc i) (t.val % 8) (by omega) h' i, h7]
  exact zero_add _

theorem Mden_eq (q : Fin 4) (s : Fin 8) (u j : Fin 1) (f : Fin 1024) :
    Mden V c (8 * q.val + s.val) (ix3 u j f)
      = ∑ r : Fin 512, max (prj (V c main_arg0) (V c main_v6) q ⟨r.val + 512 * s.val, by have := r.isLt; have := s.isLt; omega⟩ f) 0 := by
  have hN : cfg0.N = 32 := N_0
  have h : 8 * q.val + s.val < cfg0.N := by have := q.isLt; have := s.isLt; omega
  have hb : bOf ⟨8 * q.val + s.val, h⟩ = q := Fin.ext (by show (8 * q.val + s.val) / 8 = q.val; have := s.isLt; omega)
  have hn : ∀ r : Fin 512, nOf ⟨8 * q.val + s.val, h⟩ r = ⟨r.val + 512 * s.val, by have := r.isLt; have := s.isLt; omega⟩ :=
    fun r => Fin.ext (by show r.val + 512 * ((8 * q.val + s.val) % 8) = r.val + 512 * s.val; have := s.isLt; omega)
  unfold Mden
  rw [dif_pos h]
  refine Finset.sum_congr rfl fun r _ => ?_
  rw [proj_blk2, hb, hn r]

/-- What the key-sum array ends holding. -/
def Gden : S4x1x1024.Idx → EReal := fun i => ∑ n : Fin 4096, max (prj (V c main_arg0) (V c main_v6) (i 0) n (i 2)) 0

theorem emb6 (t : Fin cfg0.N) (u j : Fin 1) (f : Fin 1024) :
    ((cfg0.win 6).blk t).view.emb (ix3 u j f) = (ix3 (bOf t) j f : S4x1x1024.Idx) := by
  obtain ⟨-, -, -, -, -, -, -, -, -, -, -, -, -, -, -, e0, e1, e2⟩ := idx0 t
  have hu : u.val = 0 := by omega
  funext a; apply Fin.ext
  match a with
  | ⟨0, _⟩ => show win0_6.index t (0 : Fin 3) * 1 + 1 * u.val = t.val / 8; omega
  | ⟨1, _⟩ => show win0_6.index t (1 : Fin 3) * 1 + 1 * j.val = j.val; omega
  | ⟨2, _⟩ => show win0_6.index t (2 : Fin 3) * 1024 + 1 * f.val = f.val; omega

theorem flushed6 (t : Fin cfg0.N) (hf : (cfg0.win 6).flush t = true) :
    (dat0 V c).flushed 6 t = ((cfg0.win 6).blk t).view.read (Elt Ideal) (Gden V c) := by
  have h7 : t.val % 8 = 7 := (flush0_6 t).mp hf
  show (cfg0.win 6).cut (grid0.coords t) ((dat0 V c).after 6 t) = _
  rw [after0_6]
  funext y
  obtain ⟨u, j, f, rfl⟩ : ∃ (u j : Fin 1) (f : Fin 1024), y = ix3 u j f := ⟨y 0, y 1, y 2, eq_ix3 y⟩
  rw [View.read_apply, emb6]
  show (outsAt0 V c t.val t.isLt).2.2 (ix3 u j f) = ∑ n : Fin 4096, max (prj (V c main_arg0) (V c main_v6) (bOf t) n f) 0
  rw [den_at_flush V c t h7, Finset.sum_range, Cert.LibFiniteSums.sum_split 8 512 4096 rfl]
  exact Finset.sum_congr rfl fun s _ => Mden_eq V c (bOf t) s u j f

theorem mem_blk6 (t : Fin cfg0.N) (i : S4x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v11_2).slice (win0_6.rect t)).set ↔ _
  rw [View.set_slice_whole, Rect.mem_set_unit]
  exact Iff.rfl

theorem final_den : (dat0 V c).arrAt 6 cfg0.N = Gden V c :=
  (dat0 V c).arrAt_eq_of_cover 6 (Gden V c) (fun t hf => flushed6 V c t hf) fun i => by
    have hN : cfg0.N = 32 := N_0
    have h0 : (i 0).val < 4 := (i 0).isLt
    have h1 : (i 1).val < 1 := (i 1).isLt
    have h2 : (i 2).val < 1024 := (i 2).isLt
    let t : Fin cfg0.N := ⟨8 * (i 0).val + 7, by omega⟩
    obtain ⟨-, -, -, -, -, -, -, -, -, -, -, -, -, -, -, e0, e1, e2⟩ := idx0 t
    have tv : t.val = 8 * (i 0).val + 7 := rfl
    refine ⟨t, (flush0_6 t).mpr (by omega), ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1 ≤ (i 1).val ∧ (i 1).val < win0_6.index t (1 : Fin 3) * 1 + 1; omega
    | ⟨2, _⟩ => show win0_6.index t (2 : Fin 3) * 1024 ≤ (i 2).val ∧ (i 2).val < win0_6.index t (2 : Fin 3) * 1024 + 1024; omega

end Cert.KernelIdeal.Region0

end
-- ==== Proof.RegionOut.lean ====
/-
  The second kernel launch as one function of the four arrays it reads.

  The launch runs over a grid of 4 x 4 points: point (b, nt) reads rows nt*1024 .. nt*1024+1023 of batch b of the
  queries, the whole combined matrix of batch b (1024 rows, 2048 columns), the whole weight matrix and the whole
  bias, and writes rows nt*1024 .. nt*1024+1023 of batch b of the output. An entry (b, n, o') of the output depends
  on row n of the queries of batch b, on the combined matrix of batch b, on column o' of the weights and on entry
  o' of the bias: the query row meets the first 1024 columns of the combined matrix (the numerators) and the last
  1024 (the normalisers), each numerator is divided by its normaliser plus a constant, the row of quotients meets
  column o' of the weights, and the bias entry is added.
-/
import proofs.«102062_j61297773248523_2_alg».proof.Proof.Gen.KernelIdeal.Frame
import proofs.«102062_j61297773248523_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionOut

open Cert.KernelIdeal Cert.KernelIdeal.Gen Cert.LinAttn Idealize.ShloMosaic Idealize.ShloMosaic.TcCoe Idealize.ShloMosaic.ValueIdx Idealize.SL.Sem
open Idealize.ShloMosaic.Pipeline (Dat)

/-! ## The two products at an index

Each product contracts the second axis of its left operand with the first axis of its right operand: the left
operand is read at (row, k) and the right at (k, column), k the contraction coordinate. -/

theorem mm1_lhs0 (i : S1024x2048.Idx) (q : dot_S1024x1024_S1024x2048_S1024x2048_1_0_0_1_n_n.contr.Idx) : (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem mm1_lhs1 (i : S1024x2048.Idx) (q : dot_S1024x1024_S1024x2048_S1024x2048_1_0_0_1_n_n.contr.Idx) : (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem mm1_rhs0 (i : S1024x2048.Idx) (q : dot_S1024x1024_S1024x2048_S1024x2048_1_0_0_1_n_n.contr.Idx) : (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem mm1_rhs1 (i : S1024x2048.Idx) (q : dot_S1024x1024_S1024x2048_S1024x2048_1_0_0_1_n_n.contr.Idx) : (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The first product (a block of query rows against the combined matrix) at row `r`, column `q`: the sum over the
    1024 channels of the query row's entries times the matrix column's. -/
theorem mm1_apply (a : FVec Ideal S1024x1024 .bf16) (b : FVec Ideal S1024x2048 .bf16) (r : Fin 1024) (q : Fin 2048) :
    matmul (F := Ideal) dot_S1024x1024_S1024x2048_S1024x2048_1_0_0_1_n_n none a b (constant (F := Ideal) S1024x2048 .f32 0x00000000#32) (ix2 r q)
      = ∑ f : Fin 1024, a (ix2 r f) * b (ix2 f q) := by
  simp only [matmul]
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r q) ((contrEquiv1 dot_S1024x1024_S1024x2048_S1024x2048_1_0_0_1_n_n 1024 rfl rfl).symm k) = ix2 r k := funext fun a => Fin.ext (by
    match a with
    | ⟨0, _⟩ => exact mm1_lhs0 _ _
    | ⟨1, _⟩ => exact (mm1_lhs1 _ _).trans hk)
  have er : dot_S1024x1024_S1024x2048_S1024x2048_1_0_0_1_n_n.rhsIdx (ix2 r q) ((contrEquiv1 dot_S1024x1024_S1024x2048_S1024x2048_1_0_0_1_n_n 1024 rfl rfl).symm k) = ix2 k q := funext fun a => Fin.ext (by
    match a with
    | ⟨0, _⟩ => exact (mm1_rhs0 _ _).trans hk
    | ⟨1, _⟩ => exact mm1_rhs1 _ _)
  rw [el, er]

theorem mm2_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm2_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm2_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm2_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The second product (the block of quotients against the weights) at row `r`, column `q`. -/
theorem mm2_apply (a : FVec Ideal S1024x1024 .bf16) (b : FVec Ideal S1024x1024 .bf16) (r : Fin 1024) (q : Fin 1024) :
    matmul (F := Ideal) dot_S1024x1024_S1024x1024_S1024x1024_1_0_0_1_n_n none a b (constant (F := Ideal) S1024x1024 .f32 0x00000000#32) (ix2 r q)
      = ∑ f : Fin 1024, a (ix2 r f) * b (ix2 f q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q) ((contrEquiv1 dot_S1024x1024_S1024x1024_S1024x1024_1_0_0_1_n_n 1024 rfl rfl).symm k) = ix2 r k := funext fun a => Fin.ext (by
    match a with
    | ⟨0, _⟩ => exact mm2_lhs0 _ _
    | ⟨1, _⟩ => exact (mm2_lhs1 _ _).trans hk)
  have er : dot_S1024x1024_S1024x1024_S1024x1024_1_0_0_1_n_n.rhsIdx (ix2 r q) ((contrEquiv1 dot_S1024x1024_S1024x1024_S1024x1024_1_0_0_1_n_n 1024 rfl rfl).symm k) = ix2 k q := funext fun a => Fin.ext (by
    match a with
    | ⟨0, _⟩ => exact (mm2_rhs0 _ _).trans hk
    | ⟨1, _⟩ => exact mm2_rhs1 _ _)
  rw [el, er]

/-! ## The body's arithmetic at an index

The body drops the unit batch axis of its query block and of its combined-matrix block, multiplies them, cuts the
product into its first and last 1024 columns, divides the first by the last plus a constant, multiplies the quotients
by the weights, adds the bias (one row repeated over the 1024 rows) and puts the unit batch axis back. -/

/-- The stored block at row `r`, column `o'`, from the loaded blocks. -/
theorem pay_apply (x0 : Vec Ideal S1x1024x1024 .bf16) (x1 : Vec Ideal S1x1024x2048 .bf16) (x2 : Vec Ideal S1024x1024 .bf16) (x3 : Vec Ideal S1024 .f32) (r o' : Fin 1024) :
    k1_pay1 (F := Ideal) x0 x1 x2 x3 (ix3 (0 : Fin 1) r o') =
      (∑ o : Fin 1024, Ideal.div (∑ f : Fin 1024, x0 (ix3 (0 : Fin 1) r f) * x1 (ix3 (0 : Fin 1) f (⟨o.val, by have := o.isLt; omega⟩ : Fin 2048)))
          ((∑ f : Fin 1024, x0 (ix3 (0 : Fin 1) r f) * x1 (ix3 (0 : Fin 1) f (⟨1024 + o.val, by have := o.isLt; omega⟩ : Fin 2048))) + Ideal.ofBits .f32 0x26901D7D#32)
        * x2 (ix2 o o')) + x3 (ix1 o') := by
  unfold k1_pay1
  refine (shapeCast_ab_1ab_apply _ _ 0 r o').trans ?_
  refine (addf_apply _ _ _).trans ?_
  refine congrArg₂ (· + ·) ?_ ?_
  · refine (mm2_apply _ _ r o').trans ?_
    refine Finset.sum_congr rfl fun o _ => ?_
    refine congrArg₂ (· * ·) ?_ ?_
    · refine (truncf_apply (φ := .f32) (ψ := .bf16) _ bitsLt_bf16_f32 _).trans ?_
      refine (divf_apply _ _ _).trans ?_
      refine congrArg₂ Ideal.div ?_ ?_
      · refine (slice2_axis1_apply (n1 := 2048) 0 _ _ r o ⟨o.val, by have := o.isLt; omega⟩ (Nat.zero_add _).symm).trans ?_
        refine (mm1_apply _ _ r _).trans ?_
        refine Finset.sum_congr rfl fun f _ => ?_
        rw [shapeCast_1ab_ab_apply, shapeCast_1ab_ab_apply]
      · refine (addf_apply _ _ _).trans ?_
        refine congrArg₂ (· + ·) ?_ rfl
        refine (slice2_axis1_apply (n1 := 2048) 1024 _ _ r o ⟨1024 + o.val, by have := o.isLt; omega⟩ rfl).trans ?_
        refine (mm1_apply _ _ r _).trans ?_
        refine Finset.sum_congr rfl fun f _ => ?_
        rw [shapeCast_1ab_ab_apply, shapeCast_1ab_ab_apply]
    · exact congrFun (shapeCast_self x2 _) _
  · refine (broadcastTo_1b_ab_apply _ _ r o').trans ?_
    exact shapeCast_a_1a_apply x3 _ 0 o'

/-- The stored block at ANY index `j` of the block (its batch coordinate is 0: the block has one batch). -/
theorem pay_at (x0 : Vec Ideal S1x1024x1024 .bf16) (x1 : Vec Ideal S1x1024x2048 .bf16) (x2 : Vec Ideal S1024x1024 .bf16) (x3 : Vec Ideal S1024 .f32) (j : S1x1024x1024.Idx) :
    k1_pay1 (F := Ideal) x0 x1 x2 x3 j =
      (∑ o : Fin 1024, Ideal.div (∑ f : Fin 1024, x0 (ix3 (0 : Fin 1) (j 1) f) * x1 (ix3 (0 : Fin 1) f (⟨o.val, by have := o.isLt; omega⟩ : Fin 2048)))
          ((∑ f : Fin 1024, x0 (ix3 (0 : Fin 1) (j 1) f) * x1 (ix3 (0 : Fin 1) f (⟨1024 + o.val, by have := o.isLt; omega⟩ : Fin 2048))) + Ideal.ofBits .f32 0x26901D7D#32)
        * x2 (ix2 o (j 2))) + x3 (ix1 (j 2)) := by
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  exact (congrArg (k1_pay1 (F := Ideal) x0 x1 x2 x3) hj).trans (pay_apply x0 x1 x2 x3 (j 1) (j 2))

/-! ## A block of the output from the arrays

Entry `j` of a block is entry `i` of the output array. When the four loaded blocks hold, at the entries this one
depends on, the arrays' entries that entry `i` of the whole-array function depends on — row `i 1` of batch `i 0` of
the queries, batch `i 0` of the combined matrix, column `i 2` of the weights, entry `i 2` of the bias — the block's
entry is the whole-array function at `i`. -/

theorem blk_eq (A0 : S4x4096x1024.Idx → EReal) (A1 : S4x1024x2048.Idx → EReal) (A2 : S1024x1024.Idx → EReal) (A3 : S1024.Idx → EReal)
    (x0 : Vec Ideal S1x1024x1024 .bf16) (x1 : Vec Ideal S1x1024x2048 .bf16) (x2 : Vec Ideal S1024x1024 .bf16) (x3 : Vec Ideal S1024 .f32)
    (j : S1x1024x1024.Idx) (i : S4x4096x1024.Idx)
    (h0 : ∀ f : Fin 1024, x0 (ix3 (0 : Fin 1) (j 1) f) = A0 (ix3 (i 0) (i 1) f))
    (h1 : ∀ (f : Fin 1024) (q : Fin 2048), x1 (ix3 (0 : Fin 1) f q) = A1 (ix3 (i 0) f q))
    (h2 : ∀ o : Fin 1024, x2 (ix2 o (j 2)) = A2 (ix2 o (i 2)))
    (h3 : x3 (ix1 (j 2)) = A3 (ix1 (i 2))) :
    k1_pay1 (F := Ideal) x0 x1 x2 x3 j
      = applyQ (arr3 A0) (arr1 A3) (Ideal.ofBits .f32 0x26901D7D#32) Ideal.div (arr3 A1) (arr2 A2) (i 0) (i 1) (i 2) := by
  rw [pay_at]
  unfold applyQ arr3 arr2 arr1
  simp only [h0, h1, h2, h3]

/-! ## The blocks of the five arrays at a point

Point `t = (b, nt)` of the 4 x 4 grid reads block `(b, nt, 0)` of the queries (one batch, 1024 rows, all channels),
block `(b, 0, 0)` of the combined matrix (one batch, whole), the whole weights and the whole bias, and writes block
`(b, nt, 0)` of the output. -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block indices, decided over the 16 points: the query block moves with the output block on the batch and row
    axes, the combined-matrix block on the batch axis only, every other block index is zero, and the output's block
    indices stay below 4 on the batch and row axes. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (2 : Fin 3) = 0 ∧ win1_4.index t (0 : Fin 3) ≤ 3 ∧ win1_4.index t (1 : Fin 3) ≤ 3 :=
  (by decide +kernel : ∀ t : Fin grid1.N, _)

/-- Every pair (batch, row block) is some point's output block. -/
theorem idx_onto : ∀ (q0 : Fin 4) (q1 : Fin 4), ∃ t : Fin cfg1.N, win1_4.index t = ![q0.val, q1.val, 0] :=
  (by decide +kernel : ∀ (q0 : Fin 4) (q1 : Fin 4), ∃ t : Fin grid1.N, win1_4.index t = ![q0.val, q1.val, 0])

section
variable (V : (c : Dev nD) → (b : Ref sig .tc) → Buf (Elt Ideal) ((c : Thread nD τ).loc b))

/-- What the output array ends holding: the whole-array function of the four arrays the launch reads. -/
def G (c : Dev nD) : S4x4096x1024.Idx → EReal := fun i =>
  applyQ (arr3 (V c main_v11_0)) (arr1 (V c main_arg3)) (Ideal.ofBits .f32 0x26901D7D#32) Ideal.div (arr3 (V c main_v30)) (arr2 (V c main_v10)) (i 0) (i 1) (i 2)

/-- What point `t` writes back is block `t` of that function: an entry of the block sits in the array, on each axis, at
    the block index times the block's extent plus its coordinate inside the block, and each loaded block holds its
    array's entries at the same rule. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz3]
  simp only [View.ld_unit_zero (S := S1x1024x1024) hz3, View.ld_unit_zero (S := S1x1024x2048) hz3, View.ld_unit_zero (S := S1024x1024) hz2, View.ld_unit_zero (S := S1024) hz1]
  funext j
  show k1_pay1 (F := Ideal) (iblk1 V c 0 t) (iblk1 V c 1 t) (iblk1 V c 2 t) (iblk1 V c 3 t) j = G V c (((cfg1.win 4).blk t).view.emb j)
  obtain ⟨e00, e01, e02, e10, e11, e12, e20, e21, e30, e42, b0, b1⟩ := idx_facts t
  have hj0 : (j 0).val < 1 := (j 0).isLt
  have hj1 : (j 1).val < 1024 := (j 1).isLt
  have hj2 : (j 2).val < 1024 := (j 2).isLt
  unfold G
  refine blk_eq (V c main_v11_0) (V c main_v30) (V c main_v10) (V c main_arg3) _ _ _ _ j _ ?_ ?_ ?_ ?_
  · intro f
    show V c main_v11_0 (((cfg1.win 0).blk t).view.emb (ix3 (0 : Fin 1) (j 1) f)) = _
    refine congrArg (V c main_v11_0) (funext fun a => Fin.ext ?_)
    match a with
    | ⟨0, _⟩ => show win1_0.index t (0 : Fin 3) * 1 + 1 * 0 = win1_4.index t (0 : Fin 3) * 1 + 1 * (j 0).val; omega
    | ⟨1, _⟩ => show win1_0.index t (1 : Fin 3) * 1024 + 1 * (j 1).val = win1_4.index t (1 : Fin 3) * 1024 + 1 * (j 1).val; omega
    | ⟨2, _⟩ => show win1_0.index t (2 : Fin 3) * 1024 + 1 * f.val = f.val; omega
  · intro f q
    show V c main_v30 (((cfg1.win 1).blk t).view.emb (ix3 (0 : Fin 1) f q)) = _
    refine congrArg (V c main_v30) (funext fun a => Fin.ext ?_)
    match a with
    | ⟨0, _⟩ => show win1_1.index t (0 : Fin 3) * 1 + 1 * 0 = win1_4.index t (0 : Fin 3) * 1 + 1 * (j 0).val; omega
    | ⟨1, _⟩ => show win1_1.index t (1 : Fin 3) * 1024 + 1 * f.val = f.val; omega
    | ⟨2, _⟩ => show win1_1.index t (2 : Fin 3) * 2048 + 1 * q.val = q.val; omega
  · intro o
    show V c main_v10 (((cfg1.win 2).blk t).view.emb (ix2 o (j 2))) = _
    refine congrArg (V c main_v10) (funext fun a => Fin.ext ?_)
    match a with
    | ⟨0, _⟩ => show win1_2.index t (0 : Fin 2) * 1024 + 1 * o.val = o.val; omega
    | ⟨1, _⟩ => show win1_2.index t (1 : Fin 2) * 1024 + 1 * (j 2).val = win1_4.index t (2 : Fin 3) * 1024 + 1 * (j 2).val; omega
  · show V c main_arg3 (((cfg1.win 3).blk t).view.emb (ix1 (j 2))) = _
    refine congrArg (V c main_arg3) (funext fun a => Fin.ext ?_)
    match a with
    | ⟨0, _⟩ => show win1_3.index t (0 : Fin 1) * 1024 + 1 * (j 2).val = win1_4.index t (2 : Fin 3) * 1024 + 1 * (j 2).val; omega

/-- An index of the output array is in point `t`'s block iff each coordinate is in the block's range on its axis. -/
theorem mem_blk (t : Fin cfg1.N) (i : S4x4096x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v31).slice (win1_4.rect t)).set ↔ _
  rw [View.set_slice_whole, Rect.mem_set_unit]
  exact Iff.rfl

/-- The 16 blocks cover the output array: index `i` is in the block of the point whose batch is `i 0` and whose row block
    is `i 1 / 1024`, and every point writes its block back. -/
theorem cover (i : S4x4096x1024.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- THE OUTPUT ARRAY after the launch: at every index, the whole-array function of the queries, the combined matrix,
    the weights and the bias as the launch finds them. -/
theorem final_out (c : Dev nD) :
    (dat1 (F := Ideal) V c).arrAt 4 cfg1.N = fun i =>
      applyQ (arr3 (V c main_v11_0)) (arr1 (V c main_arg3)) (Ideal.ofBits .f32 0x26901D7D#32) Ideal.div (arr3 (V c main_v30)) (arr2 (V c main_v10)) (i 0) (i 1) (i 2) :=
  (dat1 (F := Ideal) V c).arrAt_eq_of_cover 4 (G V c) (fun t _ => flushed_eq V c t) cover

end

end Cert.KernelIdeal.RegionOut

end
-- ==== Proof.HostOps.lean ====
/-
  The host operations of the idealized kernel program, read index by index.

  Before the first launch the weight matrix of 3072 rows is cut into three blocks of 1024 rows, each block is
  transposed, and the output weight matrix is transposed; rounding is the identity on extended reals.
  Between the two launches a 0/1 matrix marks the pairs of channels of one head (both channels have the same
  quotient by 32), the key/value products are multiplied by it entrywise, the key sums are spread along the second
  channel axis and multiplied by it, and the two products are laid side by side along the last axis.
-/
import proofs.«102062_j61297773248523_2_alg».proof.Proof.Gen.KernelIdeal.Frame
import proofs.«102062_j61297773248523_2_alg».proof.Proof.AttnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostOps

open Cert.KernelIdeal Cert.KernelIdeal.Gen Cert.LinAttn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Buffers no host operation writes -/

/-- No operation before the first launch writes the input. -/
theorem pre_x : V1 m ρ c main_arg0 = m ((c.tc : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg0) := rfl

/-- A buffer none of the operations between the two launches writes holds at the second launch what it held after the first. -/
theorem mid_keep (r : Ref sig .tc)
    (h1 : ∀ o ∈ (hostOps1 : List (HloOp τ sig (Elt Ideal))), Proc.devRef .tc r ∉ o.writes)
    (h2 : ∀ o ∈ (hostOps1_1 : List (HloOp τ sig (Elt Ideal))), Proc.devRef .tc r ∉ o.writes)
    (h3 : ∀ o ∈ (hostOps1_2 : List (HloOp τ sig (Elt Ideal))), Proc.devRef .tc r ∉ o.writes) :
    W5 m ρ c (Proc.devRef .tc r) = W2 m ρ c (Proc.devRef .tc r) :=
  calc W5 m ρ c (Proc.devRef .tc r)
    _ = W4 m ρ c (Proc.devRef .tc r) := StableHlo.after_of_forall_not_mem (b := Proc.devRef .tc r) _ _ h3
    _ = W3 m ρ c (Proc.devRef .tc r) := StableHlo.after_of_forall_not_mem (b := Proc.devRef .tc r) _ _ h2
    _ = W2 m ρ c (Proc.devRef .tc r) := StableHlo.after_of_forall_not_mem (b := Proc.devRef .tc r) _ _ h1

/-- Each operation of a literal stretch writes a buffer other than the given one. -/
local macro "no_write" : tactic =>
  `(tactic| (refine List.forall_iff_forall_mem.mp ?_
             simp only [hostOps0, hostOps1, hostOps1_1, hostOps1_2, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- No host operation between the launches writes the first launch's first result. -/
theorem mid_q : V5 m ρ c main_v11_0 = V2 m ρ c main_v11_0 :=
  mid_keep m ρ c main_v11_0 (by no_write) (by no_write) (by no_write)

/-- Neither the first launch nor a later host operation writes the transposed output weights. -/
theorem mid_wp : V5 m ρ c main_v10 = V1 m ρ c main_v10 :=
  (mid_keep m ρ c main_v10 (by no_write) (by no_write) (by no_write)).trans (W2_of_ne m ρ c main_v10 (by decide))

/-- The bias is as launched at the second launch. -/
theorem mid_b : V5 m ρ c main_arg3 = m ((c.tc : Thread nD τ).loc main_arg3) :=
  calc W5 m ρ c (Proc.devRef .tc main_arg3)
    _ = W2 m ρ c (Proc.devRef .tc main_arg3) := mid_keep m ρ c main_arg3 (by no_write) (by no_write) (by no_write)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by no_write)
    _ = m ((c.tc : Thread nD τ).loc main_arg3) := rfl

/-! ## The weights before the first launch -/

/-- The query weights: rows 0 to 1023 of the weight matrix, transposed. -/
theorem pre_wq (cc f : Fin 1024) :
    (V1 m ρ c main_v4 : S1024x1024.Idx → EReal) (ix2 cc f)
      = (m ((c.tc : Thread nD τ).loc main_arg1) : S3072x1024.Idx → EReal) (ix2 (⟨f.val, by have := f.isLt; omega⟩ : Fin 3072) cc) := by
  have e : (V1 m ρ c main_v4 : S1024x1024.Idx → EReal)
      = truncf (F := Ideal) .bf16 (transpose S1024x1024 [1, 0] (extractStridedSlice S1024x1024 ![0, 0]
          (m ((c.tc : Thread nD τ).loc main_arg1) : S3072x1024.Idx → EReal) slices_S3072x1024_S1024x1024_0_0)
          transposes_S1024x1024_S1024x1024_1_0) bitsLt_bf16_f32 := by
    show StableHlo.after hostOps0 _ (Proc.devRef .tc main_v4) = _
    after_results
  rw [e, truncf_apply]
  refine (transpose_apply _ _ _ _ (ix2 f cc) ?_).trans ?_
  · intro b; match b with
    | ⟨0, _⟩ => rfl
    | ⟨1, _⟩ => rfl
  · refine extractStridedSlice_apply _ _ _ _ _ ?_
    intro a; match a with
    | ⟨0, _⟩ => show f.val = 0 + f.val; omega
    | ⟨1, _⟩ => show cc.val = 0 + cc.val; omega

/-- The key weights: rows 1024 to 2047 of the weight matrix, transposed. -/
theorem pre_wk (cc f : Fin 1024) :
    (V1 m ρ c main_v6 : S1024x1024.Idx → EReal) (ix2 cc f)
      = (m ((c.tc : Thread nD τ).loc main_arg1) : S3072x1024.Idx → EReal) (ix2 (⟨1024 + f.val, by have := f.isLt; omega⟩ : Fin 3072) cc) := by
  have e : (V1 m ρ c main_v6 : S1024x1024.Idx → EReal)
      = truncf (F := Ideal) .bf16 (transpose S1024x1024 [1, 0] (extractStridedSlice S1024x1024 ![1024, 0]
          (m ((c.tc : Thread nD τ).loc main_arg1) : S3072x1024.Idx → EReal) slices_S3072x1024_S1024x1024_1024_0)
          transposes_S1024x1024_S1024x1024_1_0) bitsLt_bf16_f32 := by
    show StableHlo.after hostOps0 _ (Proc.devRef .tc main_v6) = _
    after_results
  rw [e, truncf_apply]
  refine (transpose_apply _ _ _ _ (ix2 f cc) ?_).trans ?_
  · intro b; match b with
    | ⟨0, _⟩ => rfl
    | ⟨1, _⟩ => rfl
  · refine extractStridedSlice_apply _ _ _ _ _ ?_
    intro a; match a with
    | ⟨0, _⟩ => show 1024 + f.val = 1024 + f.val; rfl
    | ⟨1, _⟩ => show cc.val = 0 + cc.val; omega

/-- The value weights: rows 2048 to 3071 of the weight matrix, transposed. -/
theorem pre_wv (cc f : Fin 1024) :
    (V1 m ρ c main_v8 : S1024x1024.Idx → EReal) (ix2 cc f)
      = (m ((c.tc : Thread nD τ).loc main_arg1) : S3072x1024.Idx → EReal) (ix2 (⟨2048 + f.val, by have := f.isLt; omega⟩ : Fin 3072) cc) := by
  have e : (V1 m ρ c main_v8 : S1024x1024.Idx → EReal)
      = truncf (F := Ideal) .bf16 (transpose S1024x1024 [1, 0] (extractStridedSlice S1024x1024 ![2048, 0]
          (m ((c.tc : Thread nD τ).loc main_arg1) : S3072x1024.Idx → EReal) slices_S3072x1024_S1024x1024_2048_0)
          transposes_S1024x1024_S1024x1024_1_0) bitsLt_bf16_f32 := by
    show StableHlo.after hostOps0 _ (Proc.devRef .tc main_v8) = _
    after_results
  rw [e, truncf_apply]
  refine (transpose_apply _ _ _ _ (ix2 f cc) ?_).trans ?_
  · intro b; match b with
    | ⟨0, _⟩ => rfl
    | ⟨1, _⟩ => rfl
  · refine extractStridedSlice_apply _ _ _ _ _ ?_
    intro a; match a with
    | ⟨0, _⟩ => show 2048 + f.val = 2048 + f.val; rfl
    | ⟨1, _⟩ => show cc.val = 0 + cc.val; omega

/-- The output weights, transposed. -/
theorem pre_wp (o o' : Fin 1024) :
    (V1 m ρ c main_v10 : S1024x1024.Idx → EReal) (ix2 o o')
      = (m ((c.tc : Thread nD τ).loc main_arg2) : S1024x1024.Idx → EReal) (ix2 o' o) := by
  have e : (V1 m ρ c main_v10 : S1024x1024.Idx → EReal)
      = truncf (F := Ideal) .bf16 (transpose S1024x1024 [1, 0]
          (m ((c.tc : Thread nD τ).loc main_arg2) : S1024x1024.Idx → EReal)
          transposes_S1024x1024_S1024x1024_1_0) bitsLt_bf16_f32 := by
    show StableHlo.after hostOps0 _ (Proc.devRef .tc main_v10) = _
    after_results
  rw [e, truncf_apply]
  refine transpose_apply _ _ _ _ (ix2 o' o) ?_
  intro b; match b with
  | ⟨0, _⟩ => rfl
  | ⟨1, _⟩ => rfl

/-! ## The head of a channel, on 32-bit words -/

/-- The sign of a 32-bit word read signed: zero, minus one or one. -/
def sgnW (x : BitVec 32) : BitVec 32 := if x = 0 then 0 else if x.msb then -1 else 1

/-- The floored quotient by 32 as the word operations compute it, given the sign word `s` of the divisor: the quotient
    rounded toward zero, less one when the signs of dividend and divisor differ and the remainder is not zero. -/
def fdivW (s x : BitVec 32) : BitVec 32 :=
  Scalar.select (IntOp.andi (IntOp.cmpi .ne (sgnW x) s) (IntOp.cmpi .ne (IntOp.remsi .host x 32#32) 0#32))
    (IntOp.subi (IntOp.divsi .host x 32#32) 1#32) (IntOp.divsi .host x 32#32)

/-- On the words of 0, …, 1023 the floored quotient by 32 is the word of the natural quotient: the
    divisor is neither zero nor minus one, both operands are non-negative, and the correction is never taken (a positive
    dividend has the divisor's sign; the dividend zero has remainder zero). Checked position by position. -/
theorem fdivW_ofNat : ∀ n : Fin 1024, fdivW (sgnW 32#32) (BitVec.ofNat 32 n.val) = BitVec.ofNat 32 (n.val / 32) := by
  decide +kernel

set_option maxHeartbeats 1000000 in
/-- After the floored division the head words: position `f` holds the word of `f / 32`. The seventeen operations are the
    quotient and remainder of the positions by the constant 32, the two signs, and the select between the quotient and the
    quotient less one. -/
theorem v14_eq : (W4 m ρ c (Proc.devRef .tc main_v14) : IVec S1024 32) = fun i => BitVec.ofNat 32 ((i 0).val / 32) := by
  show StableHlo.after hostOps1_1 (W3 m ρ c) (Proc.devRef .tc main_v14) = _
  after_results_simp
  simp only [StableHlo.TRef.toBuf, StableHlo.TRef.ofBuf, cast_cast, cast_eq]
  funext i
  show fdivW (sgnW 32#32) (BitVec.ofNat 32 (i 0).val) = _
  exact fdivW_ofNat (i 0)

/-! ## The same-head matrix -/

/-- The comparison of two words for equality, converted to an extended real, is one when they agree and zero otherwise. -/
theorem flag_eq (a b : BitVec 32) :
    (FloatOps.uitofp (F := Ideal) .f32 (IntOp.cmpi .eq a b) : EReal) = if a = b then 1 else 0 := by
  show (((BitVec.ofBool (a == b)).toNat : ℝ) : EReal) = _
  by_cases h : a = b
  · rw [if_pos h, beq_iff_eq.mpr h]; simp
  · rw [if_neg h, beq_eq_false_iff_ne.mpr h]; simp

/-- Two natural numbers below 32 have the same 32-bit word only when they are equal. -/
theorem ofNat_inj_small (p q : Nat) (hp : p < 32) (hq : q < 32) : BitVec.ofNat 32 p = BitVec.ofNat 32 q ↔ p = q := by
  constructor
  · intro h
    have := congrArg BitVec.toNat h
    simp only [BitVec.toNat_ofNat] at this
    omega
  · intro h; rw [h]

/-- The head words spread along rows and along columns, compared and converted. -/
def maskV (v14 : IVec S1024 32) : FVec Ideal S1024x1024 .f32 :=
  uitofp (F := Ideal) .f32 (cmpi .eq
    (broadcastInDim S1024x1024 ![0, 1] bcast_S1024x1_S1024x1024_0_1 (broadcastInDim S1024x1 ![0] bcast_S1024_S1024x1_0 v14))
    (broadcastInDim S1024x1024 ![0, 1] bcast_S1x1024_S1024x1024_0_1 (broadcastInDim S1x1024 ![1] bcast_S1024_S1x1024_1 v14)))

/-- The matrix at a pair of channels is one exactly when their quotients by 32 agree. -/
theorem maskV_apply (v14 : IVec S1024 32) (hv : ∀ n : Fin 1024, v14 (ix1 n) = BitVec.ofNat 32 (n.val / 32)) (f o : Fin 1024) :
    maskV v14 (ix2 f o) = mask f o := by
  unfold maskV
  have e1 : broadcastInDim S1024x1024 ![0, 1] bcast_S1024x1_S1024x1024_0_1 (broadcastInDim S1024x1 ![0] bcast_S1024_S1024x1_0 v14) (ix2 f o)
      = v14 (ix1 f) := by
    refine (broadcastInDim_apply _ _ _ _ (ix2 f 0) ?_).trans ?_
    · intro a; match a with
      | ⟨0, _⟩ => rfl
      | ⟨1, _⟩ => rfl
    · refine broadcastInDim_apply _ _ _ _ (ix1 f) ?_
      intro a; match a with
      | ⟨0, _⟩ => rfl
  have e2 : broadcastInDim S1024x1024 ![0, 1] bcast_S1x1024_S1024x1024_0_1 (broadcastInDim S1x1024 ![1] bcast_S1024_S1x1024_1 v14) (ix2 f o)
      = v14 (ix1 o) := by
    refine (broadcastInDim_apply _ _ _ _ (ix2 0 o) ?_).trans ?_
    · intro a; match a with
      | ⟨0, _⟩ => rfl
      | ⟨1, _⟩ => rfl
    · refine broadcastInDim_apply _ _ _ _ (ix1 o) ?_
      intro a; match a with
      | ⟨0, _⟩ => rfl
  show (FloatOps.uitofp (F := Ideal) .f32 (IntOp.cmpi .eq _ _) : EReal) = _
  rw [e1, e2, hv f, hv o, flag_eq]
  unfold mask
  have hf := f.isLt; have ho := o.isLt
  by_cases h : f.val / 32 = o.val / 32
  · rw [if_pos h, if_pos ((ofNat_inj_small _ _ (by omega) (by omega)).mpr h)]
  · rw [if_neg h, if_neg (fun h' => h ((ofNat_inj_small _ _ (by omega) (by omega)).mp h'))]

/-! ## The masked products side by side -/

/-- The matrix spread over the batches. -/
theorem maskB_apply (v14 : IVec S1024 32) (hv : ∀ n : Fin 1024, v14 (ix1 n) = BitVec.ofNat 32 (n.val / 32)) (b : Fin 4) (f o : Fin 1024) :
    (broadcastInDim S4x1024x1024 ![0, 1, 2] bcast_S1x1024x1024_S4x1024x1024_0_1_2
                (broadcastInDim S1x1024x1024 ![1, 2] bcast_S1024x1024_S1x1024x1024_1_2 (maskV v14))) (ix3 b f o) = mask f o := by
  refine (broadcastInDim_apply _ _ _ _ (ix3 0 f o) ?_).trans ?_
  · intro a; match a with
    | ⟨0, _⟩ => rfl
    | ⟨1, _⟩ => rfl
    | ⟨2, _⟩ => rfl
  · refine (broadcastInDim_apply _ _ _ _ (ix2 f o) ?_).trans (maskV_apply v14 hv f o)
    intro a; match a with
    | ⟨0, _⟩ => rfl
    | ⟨1, _⟩ => rfl

/-- The key sums spread along the second channel axis. -/
theorem denB_apply (den : FVec Ideal S4x1024 .f32) (b : Fin 4) (f o : Fin 1024) :
    (broadcastInDim S4x1024x1024 ![0, 1, 2] bcast_S4x1024x1_S4x1024x1024_0_1_2
                (broadcastInDim S4x1024x1 ![0, 1] bcast_S4x1024_S4x1024x1_0_1 den)) (ix3 b f o) = den (ix2 b f) := by
  refine (broadcastInDim_apply _ _ _ _ (ix3 b f 0) ?_).trans ?_
  · intro a; match a with
    | ⟨0, _⟩ => rfl
    | ⟨1, _⟩ => rfl
    | ⟨2, _⟩ => rfl
  · refine broadcastInDim_apply _ _ _ _ (ix2 b f) ?_
    intro a; match a with
    | ⟨0, _⟩ => rfl
    | ⟨1, _⟩ => rfl

/-- The two masked products laid side by side along the last axis, read at an index: the first 1024 columns hold the
    key/value products times the matrix, the last 1024 the matrix times the key sums. -/
theorem kv_apply (num : FVec Ideal S4x1024x1024 .f32) (v14 : IVec S1024 32) (den : FVec Ideal S4x1024 .f32)
    (hv : ∀ n : Fin 1024, v14 (ix1 n) = BitVec.ofNat 32 (n.val / 32)) (b : Fin 4) (f : Fin 1024) (o : Fin 2048) :
    (truncf (F := Ideal) .bf16
        (concatenate S4x1024x2048 2
          [⟨S4x1024x1024, mulf num (broadcastInDim S4x1024x1024 ![0, 1, 2] bcast_S1x1024x1024_S4x1024x1024_0_1_2
                (broadcastInDim S1x1024x1024 ![1, 2] bcast_S1024x1024_S1x1024x1024_1_2 (maskV v14)))⟩,
           ⟨S4x1024x1024, mulf (broadcastInDim S4x1024x1024 ![0, 1, 2] bcast_S1x1024x1024_S4x1024x1024_0_1_2
                (broadcastInDim S1x1024x1024 ![1, 2] bcast_S1024x1024_S1x1024x1024_1_2 (maskV v14))) (broadcastInDim S4x1024x1024 ![0, 1, 2] bcast_S4x1024x1_S4x1024x1024_0_1_2
                (broadcastInDim S4x1024x1 ![0, 1] bcast_S4x1024_S4x1024x1_0_1 den))⟩]
          concatenates_S4x1024x1024_S4x1024x1024_S4x1024x2048_d2) bitsLt_bf16_f32 : FVec Ideal S4x1024x2048 .bf16) (ix3 b f o)
      = if h : o.val < 1024 then num (ix3 b f ⟨o.val, h⟩) * mask f ⟨o.val, h⟩
        else mask f ⟨o.val - 1024, by have := o.isLt; omega⟩ * den (ix2 b f) := by
  rw [truncf_apply]
  by_cases h : o.val < 1024
  · rw [dif_pos h]
    refine (concatenate_pair_apply_left (t := S4x1024x2048) (s₁ := S4x1024x1024) (s₂ := S4x1024x1024) (2 : Fin 3) _ _ _ (ix3 b f o) rfl
      (ix3 b f (⟨o.val, h⟩ : Fin 1024)) ?_).trans ?_
    · intro a; match a with
      | ⟨0, _⟩ => rfl
      | ⟨1, _⟩ => rfl
      | ⟨2, _⟩ => rfl
    · rw [mulf_apply, maskB_apply v14 hv]
  · rw [dif_neg h]
    refine (concatenate_pair_apply_right (t := S4x1024x2048) (s₁ := S4x1024x1024) (s₂ := S4x1024x1024) (2 : Fin 3) _ _ _ (ix3 b f o) rfl rfl
      (ix3 b f (⟨o.val - 1024, by have := o.isLt; omega⟩ : Fin 1024)) ?_ ?_).trans ?_
    · intro a ha; match a, ha with
      | ⟨0, _⟩, _ => rfl
      | ⟨1, _⟩, _ => rfl
      | ⟨2, _⟩, ha => exact absurd rfl ha
    · show (o.val - 1024) + 1024 = o.val
      omega
    · rw [mulf_apply, maskB_apply v14 hv, denB_apply]

set_option maxHeartbeats 1000000 in
/-- What the last stretch leaves in the combined matrix, from any contents `V` before it: the key/value products times the
    spread same-head matrix beside the spread same-head matrix times the spread key sums. -/
theorem v30_of (V : Valuation τ sig (Elt Ideal)) :
    (StableHlo.after hostOps1_2 V (Proc.devRef .tc main_v30) : FVec Ideal S4x1024x2048 .bf16)
      = truncf (F := Ideal) .bf16
        (concatenate S4x1024x2048 2
          [⟨S4x1024x1024, mulf (V (Proc.devRef .tc main_v11_1) : FVec Ideal S4x1024x1024 .f32)
              (broadcastInDim S4x1024x1024 ![0, 1, 2] bcast_S1x1024x1024_S4x1024x1024_0_1_2
                (broadcastInDim S1x1024x1024 ![1, 2] bcast_S1024x1024_S1x1024x1024_1_2 (maskV (V (Proc.devRef .tc main_v14)))))⟩,
           ⟨S4x1024x1024, mulf
              (broadcastInDim S4x1024x1024 ![0, 1, 2] bcast_S1x1024x1024_S4x1024x1024_0_1_2
                (broadcastInDim S1x1024x1024 ![1, 2] bcast_S1024x1024_S1x1024x1024_1_2 (maskV (V (Proc.devRef .tc main_v14)))))
              (broadcastInDim S4x1024x1024 ![0, 1, 2] bcast_S4x1024x1_S4x1024x1024_0_1_2
                (broadcastInDim S4x1024x1 ![0, 1] bcast_S4x1024_S4x1024x1_0_1 (V (Proc.devRef .tc main_v12) : FVec Ideal S4x1024 .f32)))⟩]
          concatenates_S4x1024x1024_S4x1024x1024_S4x1024x2048_d2) bitsLt_bf16_f32 := by
  after_results
  all_goals rfl

/-! ## Between the launches -/

/-- No operation before the last stretch writes the key/value products. -/
theorem w4_num : W4 m ρ c (Proc.devRef .tc main_v11_1) = W2 m ρ c (Proc.devRef .tc main_v11_1) :=
  (StableHlo.after_of_forall_not_mem (b := Proc.devRef .tc main_v11_1) _ _ (by no_write)).trans
    (StableHlo.after_of_forall_not_mem (b := Proc.devRef .tc main_v11_1) _ _ (by no_write))

/-- The key sums with their unit axis dropped: batch `b`, channel `f` is entry `(b, 0, f)` of the first launch's third result. -/
theorem w4_den (b : Fin 4) (f : Fin 1024) :
    (W4 m ρ c (Proc.devRef .tc main_v12) : FVec Ideal S4x1024 .f32) (ix2 b f)
      = (W2 m ρ c (Proc.devRef .tc main_v11_2) : FVec Ideal S4x1x1024 .f32) (ix3 b 0 f) := by
  have e1 : W4 m ρ c (Proc.devRef .tc main_v12) = W3 m ρ c (Proc.devRef .tc main_v12) :=
    StableHlo.after_of_forall_not_mem (b := Proc.devRef .tc main_v12) _ _ (by no_write)
  have e2 : (W3 m ρ c (Proc.devRef .tc main_v12) : FVec Ideal S4x1024 .f32)
      = shapeCast S4x1024 (W2 m ρ c (Proc.devRef .tc main_v11_2) : FVec Ideal S4x1x1024 .f32) shapeCasts_S4x1x1024_S4x1024 := by
    show StableHlo.after hostOps1 (W2 m ρ c) (Proc.devRef .tc main_v12) = _
    after_results
    all_goals rfl
  rw [e1, e2]
  refine shapeCast_apply _ _ _ (ix3 b 0 f) ?_
  rw [Shape.rowMajor_val_three, Shape.rowMajor_val_two]
  show (b.val * 1 + 0) * 1024 + f.val = b.val * 1024 + f.val
  omega

/-- The combined matrix the second launch reads: in its first 1024 columns the key/value products of the first launch times
    the same-head matrix, in its last 1024 the same-head matrix times the key sums. (The products are taken in the extended
    reals.) -/
theorem mid_kv_ix (b : Fin 4) (f : Fin 1024) (o : Fin 2048) :
    (V5 m ρ c main_v30 : S4x1024x2048.Idx → EReal) (ix3 b f o)
      = if h : o.val < 1024 then
          @HMul.hMul EReal EReal EReal _ ((V2 m ρ c main_v11_1 : S4x1024x1024.Idx → EReal) (ix3 b f ⟨o.val, h⟩)) (mask f ⟨o.val, h⟩)
        else
          @HMul.hMul EReal EReal EReal _ (mask f ⟨o.val - 1024, by have := o.isLt; omega⟩)
            ((V2 m ρ c main_v11_2 : S4x1x1024.Idx → EReal) (ix3 b 0 f)) := by
  have hv : ∀ n : Fin 1024, (W4 m ρ c (Proc.devRef .tc main_v14) : IVec S1024 32) (ix1 n) = BitVec.ofNat 32 (n.val / 32) :=
    fun n => congrFun (v14_eq m ρ c) (ix1 n)
  refine (congrFun (v30_of (W4 m ρ c)) (ix3 b f o)).trans ((kv_apply _ _ _ hv b f o).trans ?_)
  rw [w4_num m ρ c, w4_den m ρ c]

/-- The same, the arrays read as functions of their three coordinates (entries in the extended reals). -/
theorem mid_kv (b : Fin 4) (f : Fin 1024) (o : Fin 2048) :
    arr3 (α := EReal) (V5 m ρ c main_v30) b f o
      = if h : o.val < 1024 then arr3 (α := EReal) (V2 m ρ c main_v11_1) b f ⟨o.val, h⟩ * mask f ⟨o.val, h⟩
        else mask f ⟨o.val - 1024, by have := o.isLt; omega⟩ * arr3 (α := EReal) (V2 m ρ c main_v11_2) b (0 : Fin 1) f :=
  mid_kv_ix m ρ c b f o

end Cert.KernelIdeal.HostOps

end
-- ==== Proof.KernelValue.lean ====
/-
  The idealized kernel's result array as one function of its four arguments: the dense arrangement of ReLU-kernelised
  linear attention followed by the output layer.

  The second launch computes, from the arrays it finds, the quotient of a query row against the two halves of the
  combined matrix and the output layer on it. Those arrays are: the first launch's queries array, which is the
  rectified query projection of the input; the combined matrix, whose first half is the first launch's key-value
  array times the same-head mask and whose second half is the mask times the first launch's key-sum array; the
  transposed output weights; and the bias. The key-value array is `∑ n, K b n f * V b n o` and the key-sum array
  `∑ n, K b n f` of the rectified key projection and the value projection. So the result at (b, n, o) is `denseK` of
  the three projections.
-/
import proofs.«102062_j61297773248523_2_alg».proof.Proof.KernelRun
import proofs.«102062_j61297773248523_2_alg».proof.Proof.R0Fold
import proofs.«102062_j61297773248523_2_alg».proof.Proof.RegionOut
import proofs.«102062_j61297773248523_2_alg».proof.Proof.HostOps
import proofs.«102062_j61297773248523_2_alg».proof.Proof.AttnSpec

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.LinAttn Idealize.ShloMosaic.ValueIdx
open Cert.KernelIdeal.Region0 Cert.KernelIdeal.HostOps

variable (m : (ℓ : Loc nD τ sig) → Buf (Elt Ideal) ℓ) (ρ : Dev nD → PrngReg) (c : Dev nD)

/-- The four arguments by coordinates. -/
abbrev aX : Fin 4 → Fin 4096 → Fin 1024 → EReal := arr3 (m ((c.tc : Thread nD τ).loc main_arg0) : S4x4096x1024.Idx → EReal)
abbrev aW : Fin 3072 → Fin 1024 → EReal := arr2 (m ((c.tc : Thread nD τ).loc main_arg1) : S3072x1024.Idx → EReal)
abbrev aP : Fin 1024 → Fin 1024 → EReal := arr2 (m ((c.tc : Thread nD τ).loc main_arg2) : S1024x1024.Idx → EReal)
abbrev aB : Fin 1024 → EReal := arr1 (m ((c.tc : Thread nD τ).loc main_arg3) : S1024.Idx → EReal)

/-- The constant added to the normaliser, never evaluated. -/
abbrev eps : EReal := Ideal.ofBits .f32 0x26901D7D#32

/-- What the result array ends holding. -/
def result : S4x4096x1024.Idx → EReal := fun i =>
  denseK (qOf (aX m c) (aW m c)) (kOf (aX m c) (aW m c)) (vOf (aX m c) (aW m c)) (aP m c) (aB m c) eps Ideal.div (i 0) (i 1) (i 2)

/-! ## The projections the first launch takes -/

theorem prj_q (b : Fin 4) (n : Fin 4096) (f : Fin 1024) :
    prj (V1 m ρ c main_arg0) (V1 m ρ c main_v4) b n f = ∑ k : Fin 1024, aX m c b n k * aW m c ⟨f.val, by have := f.isLt; omega⟩ k := by
  unfold prj
  refine Finset.sum_congr rfl fun k _ => ?_
  rw [pre_x m ρ c, pre_wq m ρ c k f]
  rfl
theorem prj_k (b : Fin 4) (n : Fin 4096) (f : Fin 1024) :
    prj (V1 m ρ c main_arg0) (V1 m ρ c main_v6) b n f = ∑ k : Fin 1024, aX m c b n k * aW m c ⟨1024 + f.val, by have := f.isLt; omega⟩ k := by
  unfold prj
  refine Finset.sum_congr rfl fun k _ => ?_
  rw [pre_x m ρ c, pre_wk m ρ c k f]
  rfl
theorem prj_v (b : Fin 4) (n : Fin 4096) (f : Fin 1024) :
    prj (V1 m ρ c main_arg0) (V1 m ρ c main_v8) b n f = ∑ k : Fin 1024, aX m c b n k * aW m c ⟨2048 + f.val, by have := f.isLt; omega⟩ k := by
  unfold prj
  refine Finset.sum_congr rfl fun k _ => ?_
  rw [pre_x m ρ c, pre_wv m ρ c k f]
  rfl

/-! ## The first launch's arrays, in the specification's words -/

theorem q_arr (b : Fin 4) (n : Fin 4096) (f : Fin 1024) :
    (V2 m ρ c main_v11_0 : S4x4096x1024.Idx → EReal) (ix3 b n f) = qOf (aX m c) (aW m c) b n f := by
  have e : (V2 m ρ c main_v11_0 : S4x4096x1024.Idx → EReal) = Gq (V1 m ρ) c := (W2_arr m ρ c 4).trans (final_q (V1 m ρ) c)
  rw [e]
  show max (prj (V1 m ρ c main_arg0) (V1 m ρ c main_v4) b n f) 0 = _
  rw [prj_q]
  rfl
theorem num_arr (b : Fin 4) (f o : Fin 1024) :
    arr3 (α := EReal) (V2 m ρ c main_v11_1) b f o = numK (kOf (aX m c) (aW m c)) (vOf (aX m c) (aW m c)) b f o := by
  unfold arr3
  have e : (V2 m ρ c main_v11_1 : S4x1024x1024.Idx → EReal) = Gnum (V1 m ρ) c := (W2_arr m ρ c 5).trans (final_num (V1 m ρ) c)
  rw [e]
  show ∑ n : Fin 4096, max (prj (V1 m ρ c main_arg0) (V1 m ρ c main_v6) b n f) 0 * prj (V1 m ρ c main_arg0) (V1 m ρ c main_v8) b n o = _
  unfold numK
  refine Finset.sum_congr rfl fun n _ => ?_
  rw [prj_k, prj_v]
  rfl
theorem den_arr (b : Fin 4) (j : Fin 1) (f : Fin 1024) :
    arr3 (α := EReal) (V2 m ρ c main_v11_2) b j f = denK (kOf (aX m c) (aW m c)) b f := by
  unfold arr3
  have e : (V2 m ρ c main_v11_2 : S4x1x1024.Idx → EReal) = Gden (V1 m ρ) c := (W2_arr m ρ c 6).trans (final_den (V1 m ρ) c)
  rw [e]
  show ∑ n : Fin 4096, max (prj (V1 m ρ c main_arg0) (V1 m ρ c main_v6) b n f) 0 = _
  unfold denK
  refine Finset.sum_congr rfl fun n _ => ?_
  rw [prj_k]
  rfl

/-! ## The arrays the second launch finds -/

theorem q5 (b : Fin 4) (n : Fin 4096) (f : Fin 1024) :
    arr3 (V5 m ρ c main_v11_0 : S4x4096x1024.Idx → EReal) b n f = qOf (aX m c) (aW m c) b n f := by
  unfold arr3
  rw [mid_q m ρ c]
  exact q_arr m ρ c b n f
theorem kv5_lo (b : Fin 4) (f o : Fin 1024) :
    arr3 (α := EReal) (V5 m ρ c main_v30) b f ⟨o.val, by have := o.isLt; omega⟩
      = numK (kOf (aX m c) (aW m c)) (vOf (aX m c) (aW m c)) b f o * mask f o := by
  rw [mid_kv m ρ c b f ⟨o.val, by have := o.isLt; omega⟩, dif_pos (show o.val < 1024 from o.isLt)]
  exact congrArg (· * mask f o) (num_arr m ρ c b f o)
theorem kv5_hi (b : Fin 4) (f o : Fin 1024) :
    arr3 (α := EReal) (V5 m ρ c main_v30) b f ⟨1024 + o.val, by have := o.isLt; omega⟩
      = mask f o * denK (kOf (aX m c) (aW m c)) b f := by
  rw [mid_kv m ρ c b f ⟨1024 + o.val, by have := o.isLt; omega⟩, dif_neg (show ¬(1024 + o.val < 1024) by omega)]
  have ho : (⟨1024 + o.val - 1024, by have := o.isLt; omega⟩ : Fin 1024) = o := Fin.ext (by show 1024 + o.val - 1024 = o.val; omega)
  rw [ho, den_arr m ρ c b 0 f]
theorem wt5 (o o' : Fin 1024) : arr2 (V5 m ρ c main_v10 : S1024x1024.Idx → EReal) o o' = aP m c o' o := by
  unfold arr2
  rw [mid_wp m ρ c, pre_wp m ρ c o o']
  rfl
theorem b5 (o' : Fin 1024) : arr1 (V5 m ρ c main_arg3 : S1024.Idx → EReal) o' = aB m c o' := by
  unfold arr1
  rw [mid_b m ρ c]
  rfl

/-! ## The result array -/

theorem final : (dat1 (F := Ideal) (V5 m ρ) c).arrAt 4 cfg1.N = result m c := by
  rw [Cert.KernelIdeal.RegionOut.final_out (V5 m ρ) c]
  funext i
  unfold applyQ result denseK attnK outNum outDen
  refine congrArg₂ (· + ·) (Finset.sum_congr rfl fun o _ => ?_) (b5 m ρ c (i 2))
  rw [wt5 m ρ c o (i 2)]
  refine congrArg (· * aP m c (i 2) o) ?_
  refine congrArg₂ Ideal.div (Finset.sum_congr rfl fun f _ => ?_) (congrArg (· + eps) (Finset.sum_congr rfl fun f _ => ?_))
  · rw [q5 m ρ c (i 0) (i 1) f, kv5_lo m ρ c (i 0) f o]
  · rw [q5 m ρ c (i 0) (i 1) f, kv5_hi m ρ c (i 0) f o]

/-- The run, read: the result array ends at the dense arrangement of the arguments, the arguments unchanged. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩)
    (Cert.KernelIdeal.RunValue.run (F := Ideal) m ρ)

end Cert.KernelIdeal.KernelValue

end
-- ==== Proof.lean ====
/-
  ReLU-kernelised linear attention with an output layer: the kernel against its reference, on the extended reals.

  Both programs project the input `x` (4 batches, 4096 tokens, 1024 channels) by the three row blocks of one weight
  matrix to queries `Q` and keys `K` (each followed by `max · 0`) and values `V`, 32 heads of 32 channels.
  The reference works per head: it appends a row of ones to the head's values, contracts the padded values with the keys
  over the tokens, contracts the result with the queries over the head's channels, divides the first 32 rows by the last
  row plus a small constant, and applies the output weights and bias.
  The kernel works densely, in two launches. The first, over (batch, token tile of 512), stores the queries and
  accumulates over a batch's eight tiles the full 1024 x 1024 matrix `∑ n, K b n f * V b n o` and the row
  `∑ n, K b n f`, each from zero. Between the launches a 0/1 mask of the pairs of channels in one head multiplies the
  matrix, and the row times the mask is appended to it. The second launch, over (batch, token tile of 1024), multiplies
  a query tile by the combined matrix, divides the first half by the second half plus the same constant, and applies the
  output weights and bias.
  The two are equal term by term: a sum over 8 tiles of 512 tokens is the sum over 4096 tokens; a sum over 1024
  channels of terms carrying the mask is the sum over the 32 channels of the head, since `x * 1 = x` and `x * 0 = 0`
  for every extended real; the remaining difference is the order of the factors in each product. No distributive law is
  used, so the finiteness of the inputs is never needed, and both sides apply one division to equal operands.
  Changes of float format are the identity on the extended reals, and the idealization rewrote no operation, so
  `preserves` is trivial.
-/
import proofs.«102062_j61297773248523_2_alg».proof.Defs
import proofs.«102062_j61297773248523_2_alg».proof.Proof.Gen.Kernel
import proofs.«102062_j61297773248523_2_alg».proof.Proof.Gen.Kernel.Frame
import proofs.«102062_j61297773248523_2_alg».proof.Proof.Gen.KernelIdeal
import proofs.«102062_j61297773248523_2_alg».proof.Proof.Gen.KernelIdeal.Frame
import proofs.«102062_j61297773248523_2_alg».proof.Proof.Gen.ReferenceIdeal
import proofs.«102062_j61297773248523_2_alg».proof.Proof.Gen.ReferenceIdeal.Run
import proofs.«102062_j61297773248523_2_alg».proof.Proof.Gen.ReferenceIdeal.Read
import proofs.«102062_j61297773248523_2_alg».proof.Proof.Gen.Pre_finite_inputs
import proofs.«102062_j61297773248523_2_alg».proof.Proof.AttnSpec
import proofs.«102062_j61297773248523_2_alg».proof.Proof.AttnAlgebra
import proofs.«102062_j61297773248523_2_alg».proof.Proof.RefValue
import proofs.«102062_j61297773248523_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.LinAttn

/-- Each kernel program terminates, nothing faulting, with its arguments unchanged. -/
theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the dense arrangement of the arguments and the reference's at
    the per-head arrangement of arguments that agree: one function, index by index. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2]
  funext i
  obtain ⟨b, n, o, rfl⟩ : ∃ (b : Fin 4) (n : Fin 4096) (o : Fin 1024), i = ix3 b n o := ⟨i 0, i 1, i 2, eq_ix3 i⟩
  refine (Cert.ReferenceIdeal.RefValue.ref_eq _ _ _ _ b n o).trans ?_
  exact (denseK_eq_denseR _ _ _ _ _ _ _ b n o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
